-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg8 : FVec F S128x128 .f32) (main_arg9 : FVec F S128 .f32) (main_arg10 : FVec F S128x128 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg10
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  main_v48

def fn_part1 {F : FTy → Type} [FloatOps F] (main_arg5 : FVec F S128x128 .f32) (main_arg6 : FVec F S128 .f32) (main_arg7 : FVec F S128x128 .f32) (main_arg8 : FVec F S128x128 .f32) (main_arg9 : FVec F S128 .f32) (main_arg10 : FVec F S128x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128x128 .f32) (main_arg6 : FVec F S128 .f32) (main_arg7 : FVec F S128x128 .f32) (main_arg8 : FVec F S128x128 .f32) (main_arg9 : FVec F S128 .f32) (main_arg10 : FVec F S128x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S5000x128 : Shape := ⟨2, ![5000, 128]⟩
abbrev S1x100000x128 : Shape := ⟨3, ![1, 100000, 128]⟩

abbrev nBuf : Space → Nat
  | .hbm => 67
  | .vmem => 27
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S_, .i32⟩
  | .hbm, ⟨16, _⟩ => ⟨S1600000, .i32⟩
  | .hbm, ⟨17, _⟩ => ⟨S1600000, .i1⟩
  | .hbm, ⟨18, _⟩ => ⟨S_, .i32⟩
  | .hbm, ⟨19, _⟩ => ⟨S1600000, .i32⟩
  | .hbm, ⟨20, _⟩ => ⟨S1600000, .i32⟩
  | .hbm, ⟨21, _⟩ => ⟨S1600000, .i32⟩
  | .hbm, ⟨22, _⟩ => ⟨S1600000x1, .i32⟩
  | .hbm, ⟨23, _⟩ => ⟨S1600000x128, .f32⟩
  | .hbm, ⟨24, _⟩ => ⟨S_, .f32⟩
  | .hbm, ⟨25, _⟩ => ⟨S100000x128, .f32⟩
  | .hbm, ⟨26, _⟩ => ⟨S1600000x1, .i32⟩
  | .hbm, ⟨27, _⟩ => ⟨S100000x128, .f32⟩
  | .hbm, ⟨28, _⟩ => ⟨S128x128, .f32⟩
  | .hbm, ⟨29, _⟩ => ⟨S128x128, .f32⟩
  | .hbm, ⟨30, _⟩ => ⟨S1x128, .f32⟩
  | .hbm, ⟨31, _⟩ => ⟨S100000x128, .f32⟩
  | .hbm, ⟨32, _⟩ => ⟨S_, .i32⟩
  | .hbm, ⟨33, _⟩ => ⟨S1600000, .i32⟩
  | .hbm, ⟨34, _⟩ => ⟨S1600000, .i1⟩
  | .hbm, ⟨35, _⟩ => ⟨S_, .i32⟩
  | .hbm, ⟨36, _⟩ => ⟨S1600000, .i32⟩
  | .hbm, ⟨37, _⟩ => ⟨S1600000, .i32⟩
  | .hbm, ⟨38, _⟩ => ⟨S1600000, .i32⟩
  | .hbm, ⟨39, _⟩ => ⟨S1600000x1, .i32⟩
  | .hbm, ⟨40, _⟩ => ⟨S1600000x128, .f32⟩
  | .hbm, ⟨41, _⟩ => ⟨S_, .f32⟩
  | .hbm, ⟨42, _⟩ => ⟨S100000x128, .f32⟩
  | .hbm, ⟨43, _⟩ => ⟨S1600000x1, .i32⟩
  | .hbm, ⟨44, _⟩ => ⟨S100000x128, .f32⟩
  | .hbm, ⟨45, _⟩ => ⟨S128x128, .f32⟩
  | .hbm, ⟨46, _⟩ => ⟨S128x128, .f32⟩
  | .hbm, ⟨47, _⟩ => ⟨S1x128, .f32⟩
  | .hbm, ⟨48, _⟩ => ⟨S100000x128, .f32⟩
  | .hbm, ⟨49, _⟩ => ⟨S_, .i32⟩
  | .hbm, ⟨50, _⟩ => ⟨S1600000, .i32⟩
  | .hbm, ⟨51, _⟩ => ⟨S1600000, .i1⟩
  | .hbm, ⟨52, _⟩ => ⟨S_, .i32⟩
  | .hbm, ⟨53, _⟩ => ⟨S1600000, .i32⟩
  | .hbm, ⟨54, _⟩ => ⟨S1600000, .i32⟩
  | .hbm, ⟨55, _⟩ => ⟨S1600000, .i32⟩
  | .hbm, ⟨56, _⟩ => ⟨S1600000x1, .i32⟩
  | .hbm, ⟨57, _⟩ => ⟨S1600000x128, .f32⟩
  | .hbm, ⟨58, _⟩ => ⟨S_, .f32⟩
  | .hbm, ⟨59, _⟩ => ⟨S100000x128, .f32⟩
  | .hbm, ⟨60, _⟩ => ⟨S1600000x1, .i32⟩
  | .hbm, ⟨61, _⟩ => ⟨S100000x128, .f32⟩
  | .hbm, ⟨62, _⟩ => ⟨S128x128, .f32⟩
  | .hbm, ⟨63, _⟩ => ⟨S128x128, .f32⟩
  | .hbm, ⟨64, _⟩ => ⟨S1x128, .f32⟩
  | .hbm, ⟨65, _⟩ => ⟨S100000x128, .f32⟩
  | .hbm, ⟨66, _⟩ => ⟨S1x100000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S128x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S128x128, .f32⟩
  | .local _ .vmem, ⟨24, _⟩ => ⟨S1x128, .f32⟩
  | .local _ .vmem, ⟨25, _⟩ => ⟨S5000x128, .f32⟩
  | .local _ .vmem, ⟨26, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_c_1 : Ref sig .tc := ⟨.hbm, 32, rfl⟩
abbrev main_v18 : Ref sig .tc := ⟨.hbm, 33, rfl⟩
abbrev main_v19 : Ref sig .tc := ⟨.hbm, 34, rfl⟩
abbrev main_c_2 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_3 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_c_4 : Ref sig .tc := ⟨.hbm, 49, rfl⟩
abbrev main_v32 : Ref sig .tc := ⟨.hbm, 50, rfl⟩
abbrev main_v33 : Ref sig .tc := ⟨.hbm, 51, rfl⟩
abbrev main_c_5 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_6 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  transposes_S128x128_S128x128_1_0 : S128x128.Transposes [1, 0] S128x128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S100000x128_S1x100000x128 : S100000x128.ShapeCasts S1x100000x128
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S100000x128.size a
  hwx2_5 : ∀ i : grid2.Coords, EltTy.bits .f32 = 32 ∨ (Rect.block (s := S100000x128) S5000x128.size (cc2_transform_5 i) (hinb2_5 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v13) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v16) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v27) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v28) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v29) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v30) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v31) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v41) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v31) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v42) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v43) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v44) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v45) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S1x100000x128 : Shape := ⟨3, ![1, 100000, 128]⟩

abbrev nBuf : Space → Nat
  | .hbm => 88
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S_, .i32⟩
  | .hbm, ⟨16, _⟩ => ⟨S1600000, .i32⟩
  | .hbm, ⟨17, _⟩ => ⟨S1600000, .i1⟩
  | .hbm, ⟨18, _⟩ => ⟨S_, .i32⟩
  | .hbm, ⟨19, _⟩ => ⟨S1600000, .i32⟩
  | .hbm, ⟨20, _⟩ => ⟨S1600000, .i32⟩
  | .hbm, ⟨21, _⟩ => ⟨S1600000, .i32⟩
  | .hbm, ⟨22, _⟩ => ⟨S1600000x1, .i32⟩
  | .hbm, ⟨23, _⟩ => ⟨S1600000x128, .f32⟩
  | .hbm, ⟨24, _⟩ => ⟨S_, .f32⟩
  | .hbm, ⟨25, _⟩ => ⟨S100000x128, .f32⟩
  | .hbm, ⟨26, _⟩ => ⟨S1600000x1, .i32⟩
  | .hbm, ⟨27, _⟩ => ⟨S100000x128, .f32⟩
  | .hbm, ⟨28, _⟩ => ⟨S128x128, .f32⟩
  | .hbm, ⟨29, _⟩ => ⟨S100000x128, .f32⟩
  | .hbm, ⟨30, _⟩ => ⟨S1x128, .f32⟩
  | .hbm, ⟨31, _⟩ => ⟨S100000x128, .f32⟩
  | .hbm, ⟨32, _⟩ => ⟨S100000x128, .f32⟩
  | .hbm, ⟨33, _⟩ => ⟨S128x128, .f32⟩
  | .hbm, ⟨34, _⟩ => ⟨S100000x128, .f32⟩
  | .hbm, ⟨35, _⟩ => ⟨S100000x128, .f32⟩
  | .hbm, ⟨36, _⟩ => ⟨S_, .f32⟩
  | .hbm, ⟨37, _⟩ => ⟨S100000x128, .f32⟩
  | .hbm, ⟨38, _⟩ => ⟨S100000x128, .f32⟩
  | .hbm, ⟨39, _⟩ => ⟨S_, .i32⟩
  | .hbm, ⟨40, _⟩ => ⟨S1600000, .i32⟩
  | .hbm, ⟨41, _⟩ => ⟨S1600000, .i1⟩
  | .hbm, ⟨42, _⟩ => ⟨S_, .i32⟩
  | .hbm, ⟨43, _⟩ => ⟨S1600000, .i32⟩
  | .hbm, ⟨44, _⟩ => ⟨S1600000, .i32⟩
  | .hbm, ⟨45, _⟩ => ⟨S1600000, .i32⟩
  | .hbm, ⟨46, _⟩ => ⟨S1600000x1, .i32⟩
  | .hbm, ⟨47, _⟩ => ⟨S1600000x128, .f32⟩
  | .hbm, ⟨48, _⟩ => ⟨S_, .f32⟩
  | .hbm, ⟨49, _⟩ => ⟨S100000x128, .f32⟩
  | .hbm, ⟨50, _⟩ => ⟨S1600000x1, .i32⟩
  | .hbm, ⟨51, _⟩ => ⟨S100000x128, .f32⟩
  | .hbm, ⟨52, _⟩ => ⟨S128x128, .f32⟩
  | .hbm, ⟨53, _⟩ => ⟨S100000x128, .f32⟩
  | .hbm, ⟨54, _⟩ => ⟨S1x128, .f32⟩
  | .hbm, ⟨55, _⟩ => ⟨S100000x128, .f32⟩
  | .hbm, ⟨56, _⟩ => ⟨S100000x128, .f32⟩
  | .hbm, ⟨57, _⟩ => ⟨S128x128, .f32⟩
  | .hbm, ⟨58, _⟩ => ⟨S100000x128, .f32⟩
  | .hbm, ⟨59, _⟩ => ⟨S100000x128, .f32⟩
  | .hbm, ⟨60, _⟩ => ⟨S_, .f32⟩
  | .hbm, ⟨61, _⟩ => ⟨S100000x128, .f32⟩
  | .hbm, ⟨62, _⟩ => ⟨S100000x128, .f32⟩
  | .hbm, ⟨63, _⟩ => ⟨S_, .i32⟩
  | .hbm, ⟨64, _⟩ => ⟨S1600000, .i32⟩
  | .hbm, ⟨65, _⟩ => ⟨S1600000, .i1⟩
  | .hbm, ⟨66, _⟩ => ⟨S_, .i32⟩
  | .hbm, ⟨67, _⟩ => ⟨S1600000, .i32⟩
  | .hbm, ⟨68, _⟩ => ⟨S1600000, .i32⟩
  | .hbm, ⟨69, _⟩ => ⟨S1600000, .i32⟩
  | .hbm, ⟨70, _⟩ => ⟨S1600000x1, .i32⟩
  | .hbm, ⟨71, _⟩ => ⟨S1600000x128, .f32⟩
  | .hbm, ⟨72, _⟩ => ⟨S_, .f32⟩
  | .hbm, ⟨73, _⟩ => ⟨S100000x128, .f32⟩
  | .hbm, ⟨74, _⟩ => ⟨S1600000x1, .i32⟩
  | .hbm, ⟨75, _⟩ => ⟨S100000x128, .f32⟩
  | .hbm, ⟨76, _⟩ => ⟨S128x128, .f32⟩
  | .hbm, ⟨77, _⟩ => ⟨S100000x128, .f32⟩
  | .hbm, ⟨78, _⟩ => ⟨S1x128, .f32⟩
  | .hbm, ⟨79, _⟩ => ⟨S100000x128, .f32⟩
  | .hbm, ⟨80, _⟩ => ⟨S100000x128, .f32⟩
  | .hbm, ⟨81, _⟩ => ⟨S128x128, .f32⟩
  | .hbm, ⟨82, _⟩ => ⟨S100000x128, .f32⟩
  | .hbm, ⟨83, _⟩ => ⟨S100000x128, .f32⟩
  | .hbm, ⟨84, _⟩ => ⟨S_, .f32⟩
  | .hbm, ⟨85, _⟩ => ⟨S100000x128, .f32⟩
  | .hbm, ⟨86, _⟩ => ⟨S100000x128, .f32⟩
  | .hbm, ⟨87, _⟩ => ⟨S1x100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_call0_cst : Ref sig .tc := ⟨.hbm, 36, rfl⟩
abbrev main_call0_v0 : Ref sig .tc := ⟨.hbm, 37, rfl⟩
abbrev main_v22 : Ref sig .tc := ⟨.hbm, 38, rfl⟩
abbrev main_c_1 : Ref sig .tc := ⟨.hbm, 39, rfl⟩
abbrev main_v23 : Ref sig .tc := ⟨.hbm, 40, rfl⟩
abbrev main_v24 : Ref sig .tc := ⟨.hbm, 41, rfl⟩
abbrev main_c_2 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_3 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_call1_cst : Ref sig .tc := ⟨.hbm, 60, rfl⟩
abbrev main_call1_v0 : Ref sig .tc := ⟨.hbm, 61, rfl⟩
abbrev main_v41 : Ref sig .tc := ⟨.hbm, 62, rfl⟩
abbrev main_c_4 : Ref sig .tc := ⟨.hbm, 63, rfl⟩
abbrev main_v42 : Ref sig .tc := ⟨.hbm, 64, rfl⟩
abbrev main_v43 : Ref sig .tc := ⟨.hbm, 65, rfl⟩
abbrev main_c_5 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_cst_6 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_call2_cst : Ref sig .tc := ⟨.hbm, 84, rfl⟩
abbrev main_call2_v0 : Ref sig .tc := ⟨.hbm, 85, rfl⟩
abbrev main_v60 : Ref sig .tc := ⟨.hbm, 86, rfl⟩
abbrev main_v61 : Ref sig .tc := ⟨.hbm, 87, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  shapeCasts_S100000x128_S1x100000x128 : S100000x128.ShapeCasts S1x100000x128
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.RunValue.lean ====
/-
  The whole program's run with its result named.

  The program is seven segments: four stretches of host lines around three launches.  Every weakly fair execution runs
  them in order and terminates, and at the end every buffer that outlives the launches holds what the fold of the
  segments leaves in it: the contents `W7` built boundary by boundary from the launch memory (a stretch applies its
  lines; a launch replaces its result array by what its blocks leave and keeps everything else).  Read at the argument
  arrays that fold walks back to the launch memory; read at the result buffer it is the value the next module computes.
-/
import proofs.«155022_j81990925680796_1_alg».proof.Proof.Gen.KernelIdeal.Frame

set_option maxRecDepth 16384

noncomputable section

namespace Cert.GraphConv.Launch

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- From any memory with zero counters every weakly fair execution of the program terminates, nothing faulting; the
    result buffer ends at the last boundary's contents and the argument arrays end as launched. -/
theorem run : θ_run defs (onTc (τ := τ) (main (F := F))) ⟨m, fun _ => 0, ρ⟩ (fun r => ∀ c : Dev nD,
      r.2.mem ((c.tc : Thread nD τ).loc main_v46) = W7 m ρ c (Proc.devRef .tc main_v46)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v46 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c),
       (h c _ (mem_uc main_arg9 (by decide))).trans (W7_main_arg9 m ρ c),
       (h c _ (mem_uc main_arg10 (by decide))).trans (W7_main_arg10 m ρ c)⟩)

end Cert.GraphConv.Launch

end
-- ==== Proof.LibPlainDot.lean ====
/-
  A plain matrix product `[a, k] × [k, b] → [a, b]` read at an entry.

  The kernel's matrix unit (into the zero accumulator) and the host's `dot_general` are both, on the extended reals, the
  sum over the dimension record's contraction index of the operands' products.  When the record contracts the left
  operand's second axis with the right operand's first — stated here as four facts about the record's operand
  indices, which each use proves by evaluating its record — that sum re-indexes to `Σ j, lhs (p, j) · rhs (j, c)`.
-/
import Idealize.ShloMosaic.Lib.ValueIdx
import Idealize.ShloMosaic.PureOps.Ideal.Laws

noncomputable section

namespace Idealize.ShloMosaic.PlainDot

open Idealize.ShloMosaic Idealize.ShloMosaic.ValueIdx

variable {a k b : ℕ} {φ₁ φ₂ : FTy}

/-- The contraction sum of a plain product at entry `(p, c)`, re-indexed by the contracted coordinate. -/
theorem sum_eq (D : DotDims ⟨2, ![a, k]⟩ ⟨2, ![k, b]⟩ ⟨2, ![a, b]⟩)
    (hr : D.contr.rank = 1) (hs : D.contr.size ⟨0, by omega⟩ = k)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (lhs : FVec Ideal ⟨2, ![a, k]⟩ φ₁) (rhs : FVec Ideal ⟨2, ![k, b]⟩ φ₂) (p : Fin a) (c : Fin b) :
    ∑ q : D.contr.Idx, lhs (D.lhsIdx (ix2 p c) q) * rhs (D.rhsIdx (ix2 p c) q)
      = ∑ j : Fin k, lhs (ix2 p j) * rhs (ix2 j c) := by
  rw [← Equiv.sum_comp (contrEquiv1 D k hr hs).symm]
  refine Finset.sum_congr rfl fun j _ => ?_
  have hk := contrEquiv1_symm_val D k hr hs j
  have el : D.lhsIdx (ix2 p c) ((contrEquiv1 D k hr hs).symm j) = ix2 p j := funext fun ax => Fin.ext (by
    match ax with
    | ⟨0, _⟩ => exact hl0 _ _
    | ⟨1, _⟩ => exact (hl1 _ _).trans hk)
  have er : D.rhsIdx (ix2 p c) ((contrEquiv1 D k hr hs).symm j) = ix2 j c := funext fun ax => Fin.ext (by
    match ax with
    | ⟨0, _⟩ => exact (hr0 _ _).trans hk
    | ⟨1, _⟩ => exact hr1 _ _)
  rw [el, er]

/-- The matrix unit into the zero accumulator, at entry `(p, c)`. -/
theorem matmul_zero_apply (D : DotDims ⟨2, ![a, k]⟩ ⟨2, ![k, b]⟩ ⟨2, ![a, b]⟩) (prec : Option ContractPrecision)
    (hr : D.contr.rank = 1) (hs : D.contr.size ⟨0, by omega⟩ = k)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (lhs : FVec Ideal ⟨2, ![a, k]⟩ φ₁) (rhs : FVec Ideal ⟨2, ![k, b]⟩ φ₂) (p : Fin a) (c : Fin b) :
    matmul D prec lhs rhs (constant (F := Ideal) ⟨2, ![a, b]⟩ .f32 0x00000000#32) (ix2 p c)
      = ∑ j : Fin k, lhs (ix2 p j) * rhs (ix2 j c) :=
  (Ideal.matmul_constant_zero_apply D prec lhs rhs (ix2 p c)).trans (sum_eq D hr hs hl0 hl1 hr0 hr1 lhs rhs p c)

/-- The host's `dot_general`, at entry `(p, c)`. -/
theorem dotGeneral_apply (D : DotDims ⟨2, ![a, k]⟩ ⟨2, ![k, b]⟩ ⟨2, ![a, b]⟩) (prec : Option ContractPrecision)
    (hr : D.contr.rank = 1) (hs : D.contr.size ⟨0, by omega⟩ = k)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (lhs : FVec Ideal ⟨2, ![a, k]⟩ φ₁) (rhs : FVec Ideal ⟨2, ![k, b]⟩ φ₂) (p : Fin a) (c : Fin b) :
    Host.dotGeneral D prec lhs rhs (ix2 p c) = ∑ j : Fin k, lhs (ix2 p j) * rhs (ix2 j c) :=
  (Ideal.dotGeneral_apply D prec .single lhs rhs (ix2 p c)).trans (sum_eq D hr hs hl0 hl1 hr0 hr1 lhs rhs p c)

end Idealize.ShloMosaic.PlainDot

end
-- ==== Proof.LibSageLayer.lean ====
/-
  One mean-aggregation graph layer and the final projection, as functions of whole arrays, entry by entry.

  A layer takes the aggregated neighbour means `mean` and the node features `h` (both `[n, k]`), two weight matrices
  `[k, b]` and a bias row, and returns `max (mean·W_l + h·W_r + bias, 0)` — an `[n, b]` array.  The kernel adds the two
  matrix products first and the bias last; the reference adds the bias to the first product and the second product
  last.  Addition of extended reals is commutative and associative (also at the infinities), so the two orders agree:
  `add_right_comm`.  No finiteness is needed anywhere.
-/
import Idealize.ShloMosaic.Lib.ValueIdx
import Idealize.ShloMosaic.Lib.ValueLayout
import Idealize.ShloMosaic.Lib.Pipeline.Value
import Idealize.ShloMosaic.PureOps.Ideal.Laws
import proofs.«155022_j81990925680796_1_alg».proof.Proof.LibPlainDot

noncomputable section

namespace Cert.Sage

open Idealize.ShloMosaic Idealize.ShloMosaic.ValueIdx

variable {n k b : ℕ}

/-- The layer at entry `(r, q)`: `max ((Σ_j mean(r,j)·W_l(j,q) + Σ_j h(r,j)·W_r(j,q)) + bias(q), 0)`. -/
def layer (mean h : FVec Ideal ⟨2, ![n, k]⟩ .f32) (wl wr : FVec Ideal ⟨2, ![k, b]⟩ .f32) (bias : Fin b → Ideal .f32) :
    FVec Ideal ⟨2, ![n, b]⟩ .f32 := fun i =>
  max ((∑ j : Fin k, mean (ix2 (i 0) j) * wl (ix2 j (i 1)) + ∑ j : Fin k, h (ix2 (i 0) j) * wr (ix2 j (i 1))) + bias (i 1))
    (Ideal.ofBits .f32 0x00000000#32)

/-- The projection at entry `(r, q)`: `Σ_j p(r,j)·W(j,q) + bias(q)`. -/
def proj (p : FVec Ideal ⟨2, ![n, k]⟩ .f32) (w : FVec Ideal ⟨2, ![k, b]⟩ .f32) (bias : Fin b → Ideal .f32) :
    FVec Ideal ⟨2, ![n, b]⟩ .f32 := fun i =>
  (∑ j : Fin k, p (ix2 (i 0) j) * w (ix2 j (i 1))) + bias (i 1)

section
variable (D : DotDims ⟨2, ![n, k]⟩ ⟨2, ![k, b]⟩ ⟨2, ![n, b]⟩)
  (hr : D.contr.rank = 1) (hs : D.contr.size ⟨0, by omega⟩ = k)
  (hl0 : ∀ i q, (D.lhsIdx i q 0).val = (i 0).val)
  (hl1 : ∀ i q, (D.lhsIdx i q 1).val = (q ⟨0, by omega⟩).val)
  (hr0 : ∀ i q, (D.rhsIdx i q 0).val = (q ⟨0, by omega⟩).val)
  (hr1 : ∀ i q, (D.rhsIdx i q 1).val = (i 1).val)
include hr hs hl0 hl1 hr0 hr1

/-- The kernel's arithmetic on one block of rows, at entry `(p, q)` of the block: both matrix units into zero
    accumulators are plain contraction sums (the narrowing of their operands is the identity on extended reals), then the
    broadcast bias row, then the maximum with zero. -/
theorem kernel_block_apply (x0 x1 : FVec Ideal ⟨2, ![n, k]⟩ .f32) (wl wr : FVec Ideal ⟨2, ![k, b]⟩ .f32)
    (b2 : FVec Ideal ⟨2, ![1, b]⟩ .f32) (hbf : FTy.bf16.bits < FTy.f32.bits)
    (hB : (⟨2, ![1, b]⟩ : Shape).Broadcasts ⟨2, ![n, b]⟩) (p : Fin n) (q : Fin b) :
    maximumf (addf (addf
        (matmul D none (truncf .bf16 x0 hbf) (truncf .bf16 wl hbf) (constant (F := Ideal) ⟨2, ![n, b]⟩ .f32 0x00000000#32))
        (matmul D none (truncf .bf16 x1 hbf) (truncf .bf16 wr hbf) (constant (F := Ideal) ⟨2, ![n, b]⟩ .f32 0x00000000#32)))
        (broadcastTo ⟨2, ![n, b]⟩ b2 hB))
      (broadcast ⟨2, ![n, b]⟩ (Scalar.ofBits (F := Ideal) .f32 0x00000000#32)) (ix2 p q)
    = max ((∑ j : Fin k, x0 (ix2 p j) * wl (ix2 j q) + ∑ j : Fin k, x1 (ix2 p j) * wr (ix2 j q)) + b2 (ix2 (0 : Fin 1) q))
        (Ideal.ofBits .f32 0x00000000#32) := by
  rw [maximumf_apply, addf_apply, addf_apply, broadcast_apply, broadcastTo_1b_ab_apply,
    PlainDot.matmul_zero_apply D none hr hs hl0 hl1 hr0 hr1, PlainDot.matmul_zero_apply D none hr hs hl0 hl1 hr0 hr1]
  rfl

/-- The kernel's projection arithmetic at entry `(p, q)`. -/
theorem kernel_proj_apply (x0 : FVec Ideal ⟨2, ![n, k]⟩ .f32) (w : FVec Ideal ⟨2, ![k, b]⟩ .f32)
    (b2 : FVec Ideal ⟨2, ![1, b]⟩ .f32) (hbf : FTy.bf16.bits < FTy.f32.bits)
    (hB : (⟨2, ![1, b]⟩ : Shape).Broadcasts ⟨2, ![n, b]⟩) (p : Fin n) (q : Fin b) :
    addf (matmul D none (truncf .bf16 x0 hbf) (truncf .bf16 w hbf) (constant (F := Ideal) ⟨2, ![n, b]⟩ .f32 0x00000000#32))
        (broadcastTo ⟨2, ![n, b]⟩ b2 hB) (ix2 p q)
    = (∑ j : Fin k, x0 (ix2 p j) * w (ix2 j q)) + b2 (ix2 (0 : Fin 1) q) := by
  rw [addf_apply, broadcastTo_1b_ab_apply, PlainDot.matmul_zero_apply D none hr hs hl0 hl1 hr0 hr1]
  rfl

/-- The reference's layer — `max ((mean·W_l + bias) + h·W_r, 0)` over the host's contractions, the bias and the zero
    given as already-broadcast arrays — is `layer`: the two orders of the three-term sum agree. -/
theorem host_layer_eq (mean h : FVec Ideal ⟨2, ![n, k]⟩ .f32) (wl wr : FVec Ideal ⟨2, ![k, b]⟩ .f32)
    (bias : Fin b → Ideal .f32) (bb z : FVec Ideal ⟨2, ![n, b]⟩ .f32)
    (hbb : ∀ p q, bb (ix2 p q) = bias q) (hz : ∀ i, z i = Ideal.ofBits .f32 0x00000000#32) :
    maximumf (addf (addf (Host.dotGeneral D none mean wl) bb) (Host.dotGeneral D none h wr)) z
      = layer mean h wl wr bias := by
  funext i
  obtain ⟨p, q, rfl⟩ : ∃ (p : Fin n) (q : Fin b), i = ix2 p q := ⟨i 0, i 1, eq_ix2 i⟩
  rw [maximumf_apply, addf_apply, addf_apply, hbb, hz,
    PlainDot.dotGeneral_apply D none hr hs hl0 hl1 hr0 hr1, PlainDot.dotGeneral_apply D none hr hs hl0 hl1 hr0 hr1]
  rw [add_right_comm]
  rfl

/-- The reference's projection is `proj`. -/
theorem host_proj_eq (p : FVec Ideal ⟨2, ![n, k]⟩ .f32) (w : FVec Ideal ⟨2, ![k, b]⟩ .f32)
    (bias : Fin b → Ideal .f32) (bb : FVec Ideal ⟨2, ![n, b]⟩ .f32) (hbb : ∀ p q, bb (ix2 p q) = bias q) :
    addf (Host.dotGeneral D none p w) bb = proj p w bias := by
  funext i
  obtain ⟨r, q, rfl⟩ : ∃ (r : Fin n) (q : Fin b), i = ix2 r q := ⟨i 0, i 1, eq_ix2 i⟩
  rw [addf_apply, hbb, PlainDot.dotGeneral_apply D none hr hs hl0 hl1 hr0 hr1]
  rfl

end

end Cert.Sage

end
-- ==== Proof.LibRealMatmul.lean ====
/-
  Matrix products of real matrices, on the extended reals.

  A product `Σ j, l p j · w j c` of extended reals is bilinear and associative only away from the infinities.  When every
  entry is a real number the sums are real sums: a product of real matrices is real, a real matrix clamped below at
  `0` is real, and `(z · K) · V = z · (K · V)` — both sides are the double sum `Σ i, Σ j, z p i · K i j · V j c`.

  Also here: an `[a, b]` array read as a function of its two coordinates, and, for a dimension record of a plain
  `[a, k] × [k, b]` product, the two index facts that its non-contracted axes give (each by evaluating the record's lists).
-/
import Idealize.ShloMosaic.Lib.ValueIdx
import Idealize.ShloMosaic.PureOps.Ideal.Laws

noncomputable section

namespace Idealize.ShloMosaic.RealMatmul

open Idealize.ShloMosaic Idealize.ShloMosaic.ValueIdx

/-- For a dimension record `D` whose left operand's axis 0 is its one non-contracting axis: the left operand's index
    at `(i, q)` has first coordinate `i 0`.  Read off the record's lists. -/
macro "left_row_of% " D:term : term => `(fun i q => by
  unfold DotDims.lhsIdx
  rw [dif_neg (show ¬(0 : Fin _) ∈ ($D).lhsBatch by decide), dif_pos (show (0 : Fin _) ∈ ($D).lhsNonContracting by decide)]
  rfl)

/-- For a dimension record `D` whose right operand's axis 1 is its one non-contracting axis: the right operand's
    index at `(i, q)` has second coordinate `i 1`.  Read off the record's lists. -/
macro "right_col_of% " D:term : term => `(fun i q => by
  unfold DotDims.rhsIdx
  rw [dif_neg (show ¬(1 : Fin _) ∈ ($D).rhsBatch by decide), dif_pos (show (1 : Fin _) ∈ ($D).rhsNonContracting by decide)]
  rfl)

variable {a k r b : ℕ}

/-- An `[a, b]` array as a function of its two coordinates. -/
abbrev mat (v : FVec Ideal ⟨2, ![a, b]⟩ .f32) : Fin a → Fin b → EReal := fun p c => v (ix2 p c)

/-- The matrix product of extended reals: entry `(p, c)` is `Σ j, l p j · w j c`. -/
def dot (l : Fin a → Fin k → EReal) (w : Fin k → Fin b → EReal) : Fin a → Fin b → EReal :=
  fun p c => ∑ j : Fin k, l p j * w j c

/-- Clamping below at `0`, entry by entry. -/
def relu (z : Fin a → Fin b → EReal) : Fin a → Fin b → EReal := fun p c => max (z p c) 0

/-- Every entry is a real number. -/
def AllReal (z : Fin a → Fin b → EReal) : Prop := ∀ p c, ∃ x : ℝ, z p c = (x : EReal)

/-- The inclusion of the reals commutes with finite sums. -/
theorem coe_sum {ι : Type} (s : Finset ι) (f : ι → ℝ) : ((∑ i ∈ s, f i : ℝ) : EReal) = ∑ i ∈ s, (f i : EReal) :=
  map_sum (⟨⟨Real.toEReal, EReal.coe_zero⟩, EReal.coe_add⟩ : ℝ →+ EReal) f s

/-- A product of real matrices is real. -/
theorem allReal_dot {l : Fin a → Fin k → EReal} {w : Fin k → Fin b → EReal} (hl : AllReal l) (hw : AllReal w) :
    AllReal (dot l w) := by
  choose l' hl' using hl
  choose w' hw' using hw
  intro p c
  refine ⟨∑ j : Fin k, l' p j * w' j c, ?_⟩
  simp only [dot, hl', hw', ← EReal.coe_mul, ← coe_sum]

/-- A real matrix clamped at `0` is real. -/
theorem allReal_relu {z : Fin a → Fin b → EReal} (hz : AllReal z) : AllReal (relu z) := by
  intro p c
  obtain ⟨x, hx⟩ := hz p c
  refine ⟨max x 0, ?_⟩
  show max (z p c) 0 = _
  rw [hx, ← EReal.coe_zero]
  exact (EReal.coe_strictMono.monotone.map_max).symm

/-- Matrix multiplication of real matrices is associative: both sides are the double sum
    `Σ i, Σ j, z p i · K i j · V j c`. -/
theorem dot_assoc {z : Fin a → Fin k → EReal} {K : Fin k → Fin r → EReal} {V : Fin r → Fin b → EReal}
    (hz : AllReal z) (hK : AllReal K) (hV : AllReal V) : dot (dot z K) V = dot z (dot K V) := by
  choose z' hz' using hz
  choose K' hK' using hK
  choose V' hV' using hV
  funext p c
  simp only [dot, hz', hK', hV', ← EReal.coe_mul, ← coe_sum]
  refine congrArg Real.toEReal ?_
  simp only [Finset.sum_mul, Finset.mul_sum]
  rw [Finset.sum_comm]
  exact Finset.sum_congr rfl fun i _ => Finset.sum_congr rfl fun j _ => by ring

end Idealize.ShloMosaic.RealMatmul

end
-- ==== Proof.Block.lean ====
/-
  The kernel body's arithmetic on one block of 5000 rows, read at an entry.

  The body loads a block of neighbourhood sums `x0` and of node features `x1` (`[5000, 128]` each), the two transposed
  weight matrices `x2`, `x3` whole and the bias row `x4`, and stores
  `max ((x0 · x2 + x1 · x3) + x4, 0)`.  Narrowing an operand before the matrix unit is the identity on the extended
  reals and a matrix product into the zero accumulator is the plain contraction sum, so entry `(p, q)` of the stored
  block is `max ((Σ_j x0 (p,j) · x2 (j,q) + Σ_j x1 (p,j) · x3 (j,q)) + x4 (0,q), 0)`.  The three launches run the same
  body.
-/
import proofs.«155022_j81990925680796_1_alg».proof.Proof.Gen.KernelIdeal.Skeleton
import proofs.«155022_j81990925680796_1_alg».proof.Proof.LibSageLayer
import proofs.«155022_j81990925680796_1_alg».proof.Proof.LibRealMatmul

noncomputable section

namespace Cert.GraphConv.Block

open Idealize.ShloMosaic Idealize.ShloMosaic.ValueIdx Idealize.ShloMosaic.RealMatmul Cert.KernelIdeal Cert.KernelIdeal.Gen
open Cert.KernelIdeal.Facts₀

/-- The body's matrix products contract the left operand's columns with the right operand's rows. -/
abbrev D := dot_S5000x128_S128x128_S5000x128_1_0_0_1_n_n

theorem d_rank : D.contr.rank = 1 := rfl
theorem d_size : D.contr.size ⟨0, by decide⟩ = 128 := rfl
theorem d_l0 : ∀ (i : S5000x128.Idx) (q : D.contr.Idx), (D.lhsIdx i q 0).val = (i 0).val := left_row_of% D
theorem d_l1 : ∀ (i : S5000x128.Idx) (q : D.contr.Idx), (D.lhsIdx i q 1).val = (q ⟨0, by decide⟩).val :=
  fun i q => D.lhsIdx_val_of_single rfl i q
theorem d_r0 : ∀ (i : S5000x128.Idx) (q : D.contr.Idx), (D.rhsIdx i q 0).val = (q ⟨0, by decide⟩).val :=
  fun i q => D.rhsIdx_val_of_single rfl i q
theorem d_r1 : ∀ (i : S5000x128.Idx) (q : D.contr.Idx), (D.rhsIdx i q 1).val = (i 1).val := right_col_of% D

/-- The stored block at entry `(p, q)`, as an expression of the loaded blocks. -/
def entry (x0 x1 : FVec Ideal S5000x128 .f32) (x2 x3 : FVec Ideal S128x128 .f32) (x4 : FVec Ideal S1x128 .f32)
    (p : Fin 5000) (q : Fin 128) : EReal :=
  max ((∑ j : Fin 128, x0 (ix2 p j) * x2 (ix2 j q) + ∑ j : Fin 128, x1 (ix2 p j) * x3 (ix2 j q)) + x4 (ix2 (0 : Fin 1) q))
    (Ideal.ofBits .f32 0x00000000#32)

/-- Launch 0's stored block. -/
theorem pay0_apply (x0 x1 : FVec Ideal S5000x128 .f32) (x2 x3 : FVec Ideal S128x128 .f32) (x4 : FVec Ideal S1x128 .f32)
    (p : Fin 5000) (q : Fin 128) : k0_pay1 (F := Ideal) x0 x1 x2 x3 x4 (ix2 p q) = entry x0 x1 x2 x3 x4 p q := by
  unfold k0_pay1
  simp only [shapeCast_self]
  exact Cert.Sage.kernel_block_apply D d_rank d_size d_l0 d_l1 d_r0 d_r1 x0 x1 x2 x3 x4 Facts₀.bitsLt_bf16_f32
    Facts₀.broadcasts_S1x128_S5000x128 p q

/-- Launch 1's stored block. -/
theorem pay1_apply (x0 x1 : FVec Ideal S5000x128 .f32) (x2 x3 : FVec Ideal S128x128 .f32) (x4 : FVec Ideal S1x128 .f32)
    (p : Fin 5000) (q : Fin 128) : k1_pay1 (F := Ideal) x0 x1 x2 x3 x4 (ix2 p q) = entry x0 x1 x2 x3 x4 p q := by
  unfold k1_pay1
  simp only [shapeCast_self]
  exact Cert.Sage.kernel_block_apply D d_rank d_size d_l0 d_l1 d_r0 d_r1 x0 x1 x2 x3 x4 Facts₀.bitsLt_bf16_f32
    Facts₀.broadcasts_S1x128_S5000x128 p q

/-- Launch 2's stored block. -/
theorem pay2_apply (x0 x1 : FVec Ideal S5000x128 .f32) (x2 x3 : FVec Ideal S128x128 .f32) (x4 : FVec Ideal S1x128 .f32)
    (p : Fin 5000) (q : Fin 128) : k2_pay1 (F := Ideal) x0 x1 x2 x3 x4 (ix2 p q) = entry x0 x1 x2 x3 x4 p q := by
  unfold k2_pay1
  simp only [shapeCast_self]
  exact Cert.Sage.kernel_block_apply D d_rank d_size d_l0 d_l1 d_r0 d_r1 x0 x1 x2 x3 x4 Facts₀.bitsLt_bf16_f32
    Facts₀.broadcasts_S1x128_S5000x128 p q

/-- The stored block at any block index `y`, launch by launch. -/
theorem pay0_at (x0 x1 : FVec Ideal S5000x128 .f32) (x2 x3 : FVec Ideal S128x128 .f32) (x4 : FVec Ideal S1x128 .f32)
    (y : S5000x128.Idx) : k0_pay1 (F := Ideal) x0 x1 x2 x3 x4 y = entry x0 x1 x2 x3 x4 (y 0) (y 1) := by
  obtain ⟨p, q, rfl⟩ : ∃ (p : Fin 5000) (q : Fin 128), y = ix2 p q := ⟨y 0, y 1, eq_ix2 y⟩
  exact pay0_apply x0 x1 x2 x3 x4 p q
theorem pay1_at (x0 x1 : FVec Ideal S5000x128 .f32) (x2 x3 : FVec Ideal S128x128 .f32) (x4 : FVec Ideal S1x128 .f32)
    (y : S5000x128.Idx) : k1_pay1 (F := Ideal) x0 x1 x2 x3 x4 y = entry x0 x1 x2 x3 x4 (y 0) (y 1) := by
  obtain ⟨p, q, rfl⟩ : ∃ (p : Fin 5000) (q : Fin 128), y = ix2 p q := ⟨y 0, y 1, eq_ix2 y⟩
  exact pay1_apply x0 x1 x2 x3 x4 p q
theorem pay2_at (x0 x1 : FVec Ideal S5000x128 .f32) (x2 x3 : FVec Ideal S128x128 .f32) (x4 : FVec Ideal S1x128 .f32)
    (y : S5000x128.Idx) : k2_pay1 (F := Ideal) x0 x1 x2 x3 x4 y = entry x0 x1 x2 x3 x4 (y 0) (y 1) := by
  obtain ⟨p, q, rfl⟩ : ∃ (p : Fin 5000) (q : Fin 128), y = ix2 p q := ⟨y 0, y 1, eq_ix2 y⟩
  exact pay2_apply x0 x1 x2 x3 x4 p q

/-- A block's entry is the layer's entry.  Block number `T` of the row-blocked arrays `A`, `H` holds their rows
    `5000·T … 5000·T + 4999` (`h0`, `h1`), and the weight and bias blocks are the whole arrays; so entry `(p, q)` of the
    stored block is the layer of the whole arrays at row `5000·T + p`, column `q`. -/
theorem entry_eq_layer (A H : FVec Ideal S100000x128 .f32) (Wl Wr : FVec Ideal S128x128 .f32) (B : FVec Ideal S1x128 .f32)
    (x0 x1 : FVec Ideal S5000x128 .f32) (x2 x3 : FVec Ideal S128x128 .f32) (x4 : FVec Ideal S1x128 .f32)
    (T : ℕ) (p : Fin 5000) (q : Fin 128) (i : S100000x128.Idx)
    (hi0 : (i 0).val = T * 5000 + p.val) (hi1 : (i 1).val = q.val)
    (h0 : ∀ (y : S5000x128.Idx) (i' : S100000x128.Idx), (i' 0).val = T * 5000 + (y 0).val → (i' 1).val = (y 1).val → x0 y = A i')
    (h1 : ∀ (y : S5000x128.Idx) (i' : S100000x128.Idx), (i' 0).val = T * 5000 + (y 0).val → (i' 1).val = (y 1).val → x1 y = H i')
    (h2 : x2 = Wl) (h3 : x3 = Wr) (h4 : x4 = B) :
    entry x0 x1 x2 x3 x4 p q
      = Cert.Sage.layer (n := 100000) (k := 128) (b := 128) A H Wl Wr (fun c => B (ix2 (0 : Fin 1) c)) i := by
  subst h2 h3 h4
  have hq : (i 1 : Fin 128) = q := Fin.ext hi1
  unfold entry Cert.Sage.layer
  rw [hq]
  have e0 : ∀ j : Fin 128, x0 (ix2 p j) = A (ix2 (i 0) j) := fun j => h0 _ _ hi0 rfl
  have e1 : ∀ j : Fin 128, x1 (ix2 p j) = H (ix2 (i 0) j) := fun j => h1 _ _ hi0 rfl
  simp only [e0, e1]

end Cert.GraphConv.Block

end
-- ==== Proof.Region0.lean ====
/-
  What launch 0 leaves in its result array, as one function of the arrays it finds.

  The launch walks 20 blocks of 5000 rows.  At block `t` it fetches rows `5000·t … 5000·t + 4999` of the neighbourhood
  sums and of the node features, the two weight matrices and the bias row whole, and writes rows
  `5000·t … 5000·t + 4999` of the result.  What it writes is that block of ONE whole-array function — the layer of the
  arrays as the launch finds them — and the 20 blocks cover the result array, so the array ends holding the layer.
-/
import proofs.«155022_j81990925680796_1_alg».proof.Proof.Gen.KernelIdeal.Frame
import proofs.«155022_j81990925680796_1_alg».proof.Proof.Block

set_option maxRecDepth 16384

noncomputable section

namespace Cert.GraphConv.Region0

open Idealize.ShloMosaic Idealize.ShloMosaic.ValueIdx Idealize.ShloMosaic.TcCoe Idealize.SL.Sem Cert.KernelIdeal Cert.KernelIdeal.Gen
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The layer of the arrays the launch finds. -/
abbrev G (c : Dev nD) : S100000x128.Idx → EReal :=
  Cert.Sage.layer (n := 100000) (k := 128) (b := 128) (V c main_v13) (V c main_arg0) (V c main_v14) (V c main_v15)
    (fun q => V c main_v16 (ix2 (0 : Fin 1) q))

/-- The index maps over the grid: the two row-blocked inputs move with the output, block `t` at row block `t`; the
    weights and the bias stay at block 0; there are 20 row blocks. -/
theorem idx_facts : ∀ t : Fin cfg0.N,
    win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (1 : Fin 2) = 0 ∧ win0_5.index t (0 : Fin 2) ≤ 19 :=
  (by decide +kernel : ∀ t : Fin grid0.N, _)

/-- Every row block is some point's. -/
theorem idx_onto : ∀ q0 : Fin 20, ∃ t : Fin cfg0.N, win0_5.index t = ![q0.val, 0] :=
  (by decide +kernel : ∀ q0 : Fin 20, ∃ t : Fin grid0.N, win0_5.index t = ![q0.val, 0])

/-- A row-blocked input's block at `t` holds the array's rows from `5000 ·` the output's block index on. -/
theorem read0 (c : Dev nD) (t : Fin cfg0.N) (y : S5000x128.Idx) (i : S100000x128.Idx)
    (h0 : (i 0).val = win0_5.index t (0 : Fin 2) * 5000 + (y 0).val) (h1 : (i 1).val = (y 1).val) :
    iblk0 V c 0 t y = V c main_v13 i := by
  obtain ⟨e0, e1, -⟩ := idx_facts t
  show V c main_v13 (((cfg0.win 0).blk t).view.emb y) = V c main_v13 i
  refine congrArg _ (funext fun a => Fin.ext ?_)
  match a with
  | ⟨0, _⟩ => show win0_0.index t (0 : Fin 2) * 5000 + 1 * (y 0).val = (i 0).val; omega
  | ⟨1, _⟩ => show win0_0.index t (1 : Fin 2) * 128 + 1 * (y 1).val = (i 1).val; omega
theorem read1 (c : Dev nD) (t : Fin cfg0.N) (y : S5000x128.Idx) (i : S100000x128.Idx)
    (h0 : (i 0).val = win0_5.index t (0 : Fin 2) * 5000 + (y 0).val) (h1 : (i 1).val = (y 1).val) :
    iblk0 V c 1 t y = V c main_arg0 i := by
  obtain ⟨-, -, e0, e1, -⟩ := idx_facts t
  show V c main_arg0 (((cfg0.win 1).blk t).view.emb y) = V c main_arg0 i
  refine congrArg _ (funext fun a => Fin.ext ?_)
  match a with
  | ⟨0, _⟩ => show win0_1.index t (0 : Fin 2) * 5000 + 1 * (y 0).val = (i 0).val; omega
  | ⟨1, _⟩ => show win0_1.index t (1 : Fin 2) * 128 + 1 * (y 1).val = (i 1).val; omega
/-- The weights' and the bias row's blocks are the whole arrays. -/
theorem read2 (c : Dev nD) (t : Fin cfg0.N) : iblk0 V c 2 t = V c main_v14 := by
  obtain ⟨-, -, -, -, e0, e1, -⟩ := idx_facts t
  funext y
  show V c main_v14 (((cfg0.win 2).blk t).view.emb y) = V c main_v14 y
  refine congrArg _ (funext fun a => Fin.ext ?_)
  match a with
  | ⟨0, _⟩ => show win0_2.index t (0 : Fin 2) * 128 + 1 * (y 0).val = (y 0).val; omega
  | ⟨1, _⟩ => show win0_2.index t (1 : Fin 2) * 128 + 1 * (y 1).val = (y 1).val; omega
theorem read3 (c : Dev nD) (t : Fin cfg0.N) : iblk0 V c 3 t = V c main_v15 := by
  obtain ⟨-, -, -, -, -, -, e0, e1, -⟩ := idx_facts t
  funext y
  show V c main_v15 (((cfg0.win 3).blk t).view.emb y) = V c main_v15 y
  refine congrArg _ (funext fun a => Fin.ext ?_)
  match a with
  | ⟨0, _⟩ => show win0_3.index t (0 : Fin 2) * 128 + 1 * (y 0).val = (y 0).val; omega
  | ⟨1, _⟩ => show win0_3.index t (1 : Fin 2) * 128 + 1 * (y 1).val = (y 1).val; omega
theorem read4 (c : Dev nD) (t : Fin cfg0.N) : iblk0 V c 4 t = V c main_v16 := by
  obtain ⟨-, -, -, -, -, -, -, -, e0, e1, -⟩ := idx_facts t
  funext y
  show V c main_v16 (((cfg0.win 4).blk t).view.emb y) = V c main_v16 y
  refine congrArg _ (funext fun a => Fin.ext ?_)
  match a with
  | ⟨0, _⟩ => show win0_4.index t (0 : Fin 2) * 1 + 1 * (y 0).val = (y 0).val; omega
  | ⟨1, _⟩ => show win0_4.index t (1 : Fin 2) * 128 + 1 * (y 1).val = (y 1).val; omega

/-- What point `t` writes back is block `t` of the layer. -/
theorem flushed_eq (c : Dev nD) (t : Fin cfg0.N) :
    (dat0 V c).flushed 5 t = ((cfg0.win 5).blk t).view.read (Elt Ideal) (G V c) := by
  show (cfg0.win 5).cut (grid0.coords t) ((dat0 V c).after 5 t) = _
  rw [after0_5]
  unfold out0_5
  rw [View.canon_unit_zero hz]
  simp only [View.ld_unit_zero (S := S5000x128) hz, View.ld_unit_zero (S := S128x128) hz, View.ld_unit_zero (S := S1x128) hz]
  obtain ⟨-, -, -, -, -, -, -, -, -, -, e1, -⟩ := idx_facts t
  funext j
  refine (Block.pay0_at (iblk0 V c 0 t) (iblk0 V c 1 t) (iblk0 V c 2 t) (iblk0 V c 3 t) (iblk0 V c 4 t) j).trans ?_
  exact Block.entry_eq_layer (V c main_v13) (V c main_arg0) (V c main_v14) (V c main_v15) (V c main_v16)
    (iblk0 V c 0 t) (iblk0 V c 1 t) (iblk0 V c 2 t) (iblk0 V c 3 t) (iblk0 V c 4 t)
    (win0_5.index t (0 : Fin 2)) (j 0) (j 1) (((cfg0.win 5).blk t).view.emb j)
    (by show win0_5.index t (0 : Fin 2) * 5000 + 1 * (j 0).val = _; omega)
    (by show win0_5.index t (1 : Fin 2) * 128 + 1 * (j 1).val = _; omega)
    (read0 V c t) (read1 V c t) (read2 V c t) (read3 V c t) (read4 V c t)

/-- An index of the result array is in point `t`'s block iff each coordinate is in the block's range. -/
theorem mem_blk (t : Fin cfg0.N) (i : S100000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v17).slice (win0_5.rect t)).set ↔ _
  rw [View.set_slice_whole, Rect.mem_set_unit]
  exact Iff.rfl

/-- The 20 blocks cover the result array: row `r` is in block `r / 5000`. -/
theorem cover (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  obtain ⟨t, ht⟩ := idx_onto ⟨(i 0).val / 5000, by omega⟩
  have q0 : win0_5.index t (0 : Fin 2) = (i 0).val / 5000 := congrFun ht 0
  have q1 : win0_5.index t (1 : Fin 2) = 0 := congrFun ht 1
  refine ⟨t, flush0_5 t, ?_⟩
  rw [mem_blk]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega

/-- The result array after the launch is the layer of the arrays the launch found. -/
theorem final (c : Dev nD) : (dat0 V c).arrAt 5 cfg0.N = G V c :=
  (dat0 V c).arrAt_eq_of_cover 5 (G V c) (fun t _ => flushed_eq V c t) cover

end Cert.GraphConv.Region0

end
-- ==== Proof.Region1.lean ====
/-
  What launch 1 leaves in its result array, as one function of the arrays it finds.

  The launch walks 20 blocks of 5000 rows.  At block `t` it fetches rows `5000·t … 5000·t + 4999` of the neighbourhood
  sums and of the node features, the two weight matrices and the bias row whole, and writes rows
  `5000·t … 5000·t + 4999` of the result.  What it writes is that block of ONE whole-array function — the layer of the
  arrays as the launch finds them — and the 20 blocks cover the result array, so the array ends holding the layer.
-/
import proofs.«155022_j81990925680796_1_alg».proof.Proof.Gen.KernelIdeal.Frame
import proofs.«155022_j81990925680796_1_alg».proof.Proof.Block

set_option maxRecDepth 16384

noncomputable section

namespace Cert.GraphConv.Region1

open Idealize.ShloMosaic Idealize.ShloMosaic.ValueIdx Idealize.ShloMosaic.TcCoe Idealize.SL.Sem Cert.KernelIdeal Cert.KernelIdeal.Gen
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The layer of the arrays the launch finds. -/
abbrev G (c : Dev nD) : S100000x128.Idx → EReal :=
  Cert.Sage.layer (n := 100000) (k := 128) (b := 128) (V c main_v27) (V c main_v17) (V c main_v28) (V c main_v29)
    (fun q => V c main_v30 (ix2 (0 : Fin 1) q))

/-- The index maps over the grid: the two row-blocked inputs move with the output, block `t` at row block `t`; the
    weights and the bias stay at block 0; there are 20 row blocks. -/
theorem idx_facts : ∀ t : Fin cfg1.N,
    win1_0.index t (0 : Fin 2) = win1_5.index t (0 : Fin 2) ∧ win1_0.index t (1 : Fin 2) = 0
    ∧ win1_1.index t (0 : Fin 2) = win1_5.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (1 : Fin 2) = 0 ∧ win1_5.index t (0 : Fin 2) ≤ 19 :=
  (by decide +kernel : ∀ t : Fin grid1.N, _)

/-- Every row block is some point's. -/
theorem idx_onto : ∀ q0 : Fin 20, ∃ t : Fin cfg1.N, win1_5.index t = ![q0.val, 0] :=
  (by decide +kernel : ∀ q0 : Fin 20, ∃ t : Fin grid1.N, win1_5.index t = ![q0.val, 0])

/-- A row-blocked input's block at `t` holds the array's rows from `5000 ·` the output's block index on. -/
theorem read0 (c : Dev nD) (t : Fin cfg1.N) (y : S5000x128.Idx) (i : S100000x128.Idx)
    (h0 : (i 0).val = win1_5.index t (0 : Fin 2) * 5000 + (y 0).val) (h1 : (i 1).val = (y 1).val) :
    iblk1 V c 0 t y = V c main_v27 i := by
  obtain ⟨e0, e1, -⟩ := idx_facts t
  show V c main_v27 (((cfg1.win 0).blk t).view.emb y) = V c main_v27 i
  refine congrArg _ (funext fun a => Fin.ext ?_)
  match a with
  | ⟨0, _⟩ => show win1_0.index t (0 : Fin 2) * 5000 + 1 * (y 0).val = (i 0).val; omega
  | ⟨1, _⟩ => show win1_0.index t (1 : Fin 2) * 128 + 1 * (y 1).val = (i 1).val; omega
theorem read1 (c : Dev nD) (t : Fin cfg1.N) (y : S5000x128.Idx) (i : S100000x128.Idx)
    (h0 : (i 0).val = win1_5.index t (0 : Fin 2) * 5000 + (y 0).val) (h1 : (i 1).val = (y 1).val) :
    iblk1 V c 1 t y = V c main_v17 i := by
  obtain ⟨-, -, e0, e1, -⟩ := idx_facts t
  show V c main_v17 (((cfg1.win 1).blk t).view.emb y) = V c main_v17 i
  refine congrArg _ (funext fun a => Fin.ext ?_)
  match a with
  | ⟨0, _⟩ => show win1_1.index t (0 : Fin 2) * 5000 + 1 * (y 0).val = (i 0).val; omega
  | ⟨1, _⟩ => show win1_1.index t (1 : Fin 2) * 128 + 1 * (y 1).val = (i 1).val; omega
/-- The weights' and the bias row's blocks are the whole arrays. -/
theorem read2 (c : Dev nD) (t : Fin cfg1.N) : iblk1 V c 2 t = V c main_v28 := by
  obtain ⟨-, -, -, -, e0, e1, -⟩ := idx_facts t
  funext y
  show V c main_v28 (((cfg1.win 2).blk t).view.emb y) = V c main_v28 y
  refine congrArg _ (funext fun a => Fin.ext ?_)
  match a with
  | ⟨0, _⟩ => show win1_2.index t (0 : Fin 2) * 128 + 1 * (y 0).val = (y 0).val; omega
  | ⟨1, _⟩ => show win1_2.index t (1 : Fin 2) * 128 + 1 * (y 1).val = (y 1).val; omega
theorem read3 (c : Dev nD) (t : Fin cfg1.N) : iblk1 V c 3 t = V c main_v29 := by
  obtain ⟨-, -, -, -, -, -, e0, e1, -⟩ := idx_facts t
  funext y
  show V c main_v29 (((cfg1.win 3).blk t).view.emb y) = V c main_v29 y
  refine congrArg _ (funext fun a => Fin.ext ?_)
  match a with
  | ⟨0, _⟩ => show win1_3.index t (0 : Fin 2) * 128 + 1 * (y 0).val = (y 0).val; omega
  | ⟨1, _⟩ => show win1_3.index t (1 : Fin 2) * 128 + 1 * (y 1).val = (y 1).val; omega
theorem read4 (c : Dev nD) (t : Fin cfg1.N) : iblk1 V c 4 t = V c main_v30 := by
  obtain ⟨-, -, -, -, -, -, -, -, e0, e1, -⟩ := idx_facts t
  funext y
  show V c main_v30 (((cfg1.win 4).blk t).view.emb y) = V c main_v30 y
  refine congrArg _ (funext fun a => Fin.ext ?_)
  match a with
  | ⟨0, _⟩ => show win1_4.index t (0 : Fin 2) * 1 + 1 * (y 0).val = (y 0).val; omega
  | ⟨1, _⟩ => show win1_4.index t (1 : Fin 2) * 128 + 1 * (y 1).val = (y 1).val; omega

/-- What point `t` writes back is block `t` of the layer. -/
theorem flushed_eq (c : Dev nD) (t : Fin cfg1.N) :
    (dat1 V c).flushed 5 t = ((cfg1.win 5).blk t).view.read (Elt Ideal) (G V c) := by
  show (cfg1.win 5).cut (grid1.coords t) ((dat1 V c).after 5 t) = _
  rw [after1_5]
  unfold out1_5
  rw [View.canon_unit_zero hz]
  simp only [View.ld_unit_zero (S := S5000x128) hz, View.ld_unit_zero (S := S128x128) hz, View.ld_unit_zero (S := S1x128) hz]
  obtain ⟨-, -, -, -, -, -, -, -, -, -, e1, -⟩ := idx_facts t
  funext j
  refine (Block.pay1_at (iblk1 V c 0 t) (iblk1 V c 1 t) (iblk1 V c 2 t) (iblk1 V c 3 t) (iblk1 V c 4 t) j).trans ?_
  exact Block.entry_eq_layer (V c main_v27) (V c main_v17) (V c main_v28) (V c main_v29) (V c main_v30)
    (iblk1 V c 0 t) (iblk1 V c 1 t) (iblk1 V c 2 t) (iblk1 V c 3 t) (iblk1 V c 4 t)
    (win1_5.index t (0 : Fin 2)) (j 0) (j 1) (((cfg1.win 5).blk t).view.emb j)
    (by show win1_5.index t (0 : Fin 2) * 5000 + 1 * (j 0).val = _; omega)
    (by show win1_5.index t (1 : Fin 2) * 128 + 1 * (j 1).val = _; omega)
    (read0 V c t) (read1 V c t) (read2 V c t) (read3 V c t) (read4 V c t)

/-- An index of the result array is in point `t`'s block iff each coordinate is in the block's range. -/
theorem mem_blk (t : Fin cfg1.N) (i : S100000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v31).slice (win1_5.rect t)).set ↔ _
  rw [View.set_slice_whole, Rect.mem_set_unit]
  exact Iff.rfl

/-- The 20 blocks cover the result array: row `r` is in block `r / 5000`. -/
theorem cover (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  obtain ⟨t, ht⟩ := idx_onto ⟨(i 0).val / 5000, by omega⟩
  have q0 : win1_5.index t (0 : Fin 2) = (i 0).val / 5000 := congrFun ht 0
  have q1 : win1_5.index t (1 : Fin 2) = 0 := congrFun ht 1
  refine ⟨t, flush1_5 t, ?_⟩
  rw [mem_blk]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 128 ≤ (i 1).val ∧ (i 1).val < win1_5.index t (1 : Fin 2) * 128 + 128; omega

/-- The result array after the launch is the layer of the arrays the launch found. -/
theorem final (c : Dev nD) : (dat1 V c).arrAt 5 cfg1.N = G V c :=
  (dat1 V c).arrAt_eq_of_cover 5 (G V c) (fun t _ => flushed_eq V c t) cover

end Cert.GraphConv.Region1

end
-- ==== Proof.Region2.lean ====
/-
  What launch 2 leaves in its result array, as one function of the arrays it finds.

  The launch walks 20 blocks of 5000 rows.  At block `t` it fetches rows `5000·t … 5000·t + 4999` of the neighbourhood
  sums and of the node features, the two weight matrices and the bias row whole, and writes rows
  `5000·t … 5000·t + 4999` of the result.  What it writes is that block of ONE whole-array function — the layer of the
  arrays as the launch finds them — and the 20 blocks cover the result array, so the array ends holding the layer.
-/
import proofs.«155022_j81990925680796_1_alg».proof.Proof.Gen.KernelIdeal.Frame
import proofs.«155022_j81990925680796_1_alg».proof.Proof.Block

set_option maxRecDepth 16384

noncomputable section

namespace Cert.GraphConv.Region2

open Idealize.ShloMosaic Idealize.ShloMosaic.ValueIdx Idealize.ShloMosaic.TcCoe Idealize.SL.Sem Cert.KernelIdeal Cert.KernelIdeal.Gen
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The layer of the arrays the launch finds. -/
abbrev G (c : Dev nD) : S100000x128.Idx → EReal :=
  Cert.Sage.layer (n := 100000) (k := 128) (b := 128) (V c main_v41) (V c main_v31) (V c main_v42) (V c main_v43)
    (fun q => V c main_v44 (ix2 (0 : Fin 1) q))

/-- The index maps over the grid: the two row-blocked inputs move with the output, block `t` at row block `t`; the
    weights and the bias stay at block 0; there are 20 row blocks. -/
theorem idx_facts : ∀ t : Fin cfg2.N,
    win2_0.index t (0 : Fin 2) = win2_5.index t (0 : Fin 2) ∧ win2_0.index t (1 : Fin 2) = 0
    ∧ win2_1.index t (0 : Fin 2) = win2_5.index t (0 : Fin 2) ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (1 : Fin 2) = 0 ∧ win2_5.index t (0 : Fin 2) ≤ 19 :=
  (by decide +kernel : ∀ t : Fin grid2.N, _)

/-- Every row block is some point's. -/
theorem idx_onto : ∀ q0 : Fin 20, ∃ t : Fin cfg2.N, win2_5.index t = ![q0.val, 0] :=
  (by decide +kernel : ∀ q0 : Fin 20, ∃ t : Fin grid2.N, win2_5.index t = ![q0.val, 0])

/-- A row-blocked input's block at `t` holds the array's rows from `5000 ·` the output's block index on. -/
theorem read0 (c : Dev nD) (t : Fin cfg2.N) (y : S5000x128.Idx) (i : S100000x128.Idx)
    (h0 : (i 0).val = win2_5.index t (0 : Fin 2) * 5000 + (y 0).val) (h1 : (i 1).val = (y 1).val) :
    iblk2 V c 0 t y = V c main_v41 i := by
  obtain ⟨e0, e1, -⟩ := idx_facts t
  show V c main_v41 (((cfg2.win 0).blk t).view.emb y) = V c main_v41 i
  refine congrArg _ (funext fun a => Fin.ext ?_)
  match a with
  | ⟨0, _⟩ => show win2_0.index t (0 : Fin 2) * 5000 + 1 * (y 0).val = (i 0).val; omega
  | ⟨1, _⟩ => show win2_0.index t (1 : Fin 2) * 128 + 1 * (y 1).val = (i 1).val; omega
theorem read1 (c : Dev nD) (t : Fin cfg2.N) (y : S5000x128.Idx) (i : S100000x128.Idx)
    (h0 : (i 0).val = win2_5.index t (0 : Fin 2) * 5000 + (y 0).val) (h1 : (i 1).val = (y 1).val) :
    iblk2 V c 1 t y = V c main_v31 i := by
  obtain ⟨-, -, e0, e1, -⟩ := idx_facts t
  show V c main_v31 (((cfg2.win 1).blk t).view.emb y) = V c main_v31 i
  refine congrArg _ (funext fun a => Fin.ext ?_)
  match a with
  | ⟨0, _⟩ => show win2_1.index t (0 : Fin 2) * 5000 + 1 * (y 0).val = (i 0).val; omega
  | ⟨1, _⟩ => show win2_1.index t (1 : Fin 2) * 128 + 1 * (y 1).val = (i 1).val; omega
/-- The weights' and the bias row's blocks are the whole arrays. -/
theorem read2 (c : Dev nD) (t : Fin cfg2.N) : iblk2 V c 2 t = V c main_v42 := by
  obtain ⟨-, -, -, -, e0, e1, -⟩ := idx_facts t
  funext y
  show V c main_v42 (((cfg2.win 2).blk t).view.emb y) = V c main_v42 y
  refine congrArg _ (funext fun a => Fin.ext ?_)
  match a with
  | ⟨0, _⟩ => show win2_2.index t (0 : Fin 2) * 128 + 1 * (y 0).val = (y 0).val; omega
  | ⟨1, _⟩ => show win2_2.index t (1 : Fin 2) * 128 + 1 * (y 1).val = (y 1).val; omega
theorem read3 (c : Dev nD) (t : Fin cfg2.N) : iblk2 V c 3 t = V c main_v43 := by
  obtain ⟨-, -, -, -, -, -, e0, e1, -⟩ := idx_facts t
  funext y
  show V c main_v43 (((cfg2.win 3).blk t).view.emb y) = V c main_v43 y
  refine congrArg _ (funext fun a => Fin.ext ?_)
  match a with
  | ⟨0, _⟩ => show win2_3.index t (0 : Fin 2) * 128 + 1 * (y 0).val = (y 0).val; omega
  | ⟨1, _⟩ => show win2_3.index t (1 : Fin 2) * 128 + 1 * (y 1).val = (y 1).val; omega
theorem read4 (c : Dev nD) (t : Fin cfg2.N) : iblk2 V c 4 t = V c main_v44 := by
  obtain ⟨-, -, -, -, -, -, -, -, e0, e1, -⟩ := idx_facts t
  funext y
  show V c main_v44 (((cfg2.win 4).blk t).view.emb y) = V c main_v44 y
  refine congrArg _ (funext fun a => Fin.ext ?_)
  match a with
  | ⟨0, _⟩ => show win2_4.index t (0 : Fin 2) * 1 + 1 * (y 0).val = (y 0).val; omega
  | ⟨1, _⟩ => show win2_4.index t (1 : Fin 2) * 128 + 1 * (y 1).val = (y 1).val; omega

/-- What point `t` writes back is block `t` of the layer. -/
theorem flushed_eq (c : Dev nD) (t : Fin cfg2.N) :
    (dat2 V c).flushed 5 t = ((cfg2.win 5).blk t).view.read (Elt Ideal) (G V c) := by
  show (cfg2.win 5).cut (grid2.coords t) ((dat2 V c).after 5 t) = _
  rw [after2_5]
  unfold out2_5
  rw [View.canon_unit_zero hz]
  simp only [View.ld_unit_zero (S := S5000x128) hz, View.ld_unit_zero (S := S128x128) hz, View.ld_unit_zero (S := S1x128) hz]
  obtain ⟨-, -, -, -, -, -, -, -, -, -, e1, -⟩ := idx_facts t
  funext j
  refine (Block.pay2_at (iblk2 V c 0 t) (iblk2 V c 1 t) (iblk2 V c 2 t) (iblk2 V c 3 t) (iblk2 V c 4 t) j).trans ?_
  exact Block.entry_eq_layer (V c main_v41) (V c main_v31) (V c main_v42) (V c main_v43) (V c main_v44)
    (iblk2 V c 0 t) (iblk2 V c 1 t) (iblk2 V c 2 t) (iblk2 V c 3 t) (iblk2 V c 4 t)
    (win2_5.index t (0 : Fin 2)) (j 0) (j 1) (((cfg2.win 5).blk t).view.emb j)
    (by show win2_5.index t (0 : Fin 2) * 5000 + 1 * (j 0).val = _; omega)
    (by show win2_5.index t (1 : Fin 2) * 128 + 1 * (j 1).val = _; omega)
    (read0 V c t) (read1 V c t) (read2 V c t) (read3 V c t) (read4 V c t)

/-- An index of the result array is in point `t`'s block iff each coordinate is in the block's range. -/
theorem mem_blk (t : Fin cfg2.N) (i : S100000x128.Idx) :
    i ∈ ((cfg2.win 5).blk t).view.set ↔ ∀ a : Fin 2, win2_5.index t a * S5000x128.size a ≤ (i a).val ∧ (i a).val < win2_5.index t a * S5000x128.size a + S5000x128.size a := by
  show i ∈ ((View.whole main_v45).slice (win2_5.rect t)).set ↔ _
  rw [View.set_slice_whole, Rect.mem_set_unit]
  exact Iff.rfl

/-- The 20 blocks cover the result array: row `r` is in block `r / 5000`. -/
theorem cover (i : S100000x128.Idx) :
    ∃ t : Fin cfg2.N, (cfg2.win 5).flush t = true ∧ i ∈ ((cfg2.win 5).blk t).view.set := by
  have hi0 : (i 0).val < 100000 := (i 0).isLt
  have hi1 : (i 1).val < 128 := (i 1).isLt
  obtain ⟨t, ht⟩ := idx_onto ⟨(i 0).val / 5000, by omega⟩
  have q0 : win2_5.index t (0 : Fin 2) = (i 0).val / 5000 := congrFun ht 0
  have q1 : win2_5.index t (1 : Fin 2) = 0 := congrFun ht 1
  refine ⟨t, flush2_5 t, ?_⟩
  rw [mem_blk]
  intro a
  match a with
  | ⟨0, _⟩ => show win2_5.index t (0 : Fin 2) * 5000 ≤ (i 0).val ∧ (i 0).val < win2_5.index t (0 : Fin 2) * 5000 + 5000; omega
  | ⟨1, _⟩ => show win2_5.index t (1 : Fin 2) * 128 ≤ (i 1).val ∧ (i 1).val < win2_5.index t (1 : Fin 2) * 128 + 128; omega

/-- The result array after the launch is the layer of the arrays the launch found. -/
theorem final (c : Dev nD) : (dat2 V c).arrAt 5 cfg2.N = G V c :=
  (dat2 V c).arrAt_eq_of_cover 5 (G V c) (fun t _ => flushed_eq V c t) cover

end Cert.GraphConv.Region2

end
-- ==== Proof.GraphConv.lean ====
/-
  Three stacked graph-convolution layers, as one function of the argument arrays.

  A layer takes node features `h` (`[100000, 128]`), the edge list's source and destination ids, two `[128, 128]`
  weight matrices and a bias vector.  Its neighbourhood sum `agg h` gathers row `src e` of `h` for every edge `e` (a
  negative id counted from the end) and adds it into row `dst e` of a zero array.  The layer's result at `(p, q)` is
  `max ((Σ_j agg h (p,j) · W_rel (q,j) + Σ_j h (p,j) · W_root (q,j)) + b (q), 0)`: the weights enter transposed.  The
  network is three such layers, each fed the previous one's result, under a leading unit axis.

  The gather and the scatter are never opened: both programs apply the same two operations to values that are proved
  equal, so `agg` stays one opaque function of `h` and the ids.
-/
import proofs.«155022_j81990925680796_1_alg».proof.Proof.Gen.KernelIdeal
import proofs.«155022_j81990925680796_1_alg».proof.Proof.LibSageLayer

noncomputable section

namespace Cert.GraphConv

open Idealize.ShloMosaic Idealize.ShloMosaic.ValueIdx Cert.KernelIdeal Cert.KernelIdeal.Facts₀

/-- Node features, a weight matrix, a bias vector, the edge list, a flat id vector. -/
abbrev Feat := (⟨S100000x128, .f32⟩ : BufTy).Contents (Elt Ideal)
abbrev Mat := (⟨S128x128, .f32⟩ : BufTy).Contents (Elt Ideal)
abbrev Bias := (⟨S128, .f32⟩ : BufTy).Contents (Elt Ideal)
abbrev Edges := (⟨S2x1600000, .i32⟩ : BufTy).Contents (Elt Ideal)
abbrev Ids := (⟨S1600000, .i32⟩ : BufTy).Contents (Elt Ideal)

/-- Row 0 of the edge list: the source id of every edge. -/
def srcIds (e : Edges) : Ids :=
  shapeCast _ (extractStridedSlice S1x1600000 ![0, 0] e slices_S2x1600000_S1x1600000_0_0) shapeCasts_S1x1600000_S1600000

/-- Row 1 of the edge list: the destination id of every edge. -/
def dstIds (e : Edges) : Ids :=
  shapeCast _ (extractStridedSlice S1x1600000 ![1, 0] e slices_S2x1600000_S1x1600000_1_0) shapeCasts_S1x1600000_S1600000

/-- The neighbourhood sum: rows of `h` gathered at the source ids (a negative id wrapped by the row count) and added
    into a zero array at the destination ids. -/
def agg (h : Feat) (s d : Ids) : Feat :=
  Host.scatterAdd (F := Ideal) scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 d)
    (Host.gather gather_S100000x128_S1600000x1_S1600000x128_1_0_n_n_0_1_1128 h
      (broadcastInDim S1600000x1 ![0] bcast_S1600000_S1600000x1_0
        (select (cmpi .slt s (broadcastInDim S1600000 ![] bcast_S_S1600000 (constantI S_ 32 0#32)))
          (addi s (broadcastInDim S1600000 ![] bcast_S_S1600000 (constantI S_ 32 100000#32))) s)))

/-- A weight matrix transposed. -/
def tr (w : Mat) : Mat := transpose S128x128 [1, 0] w transposes_S128x128_S128x128_1_0

/-- One layer: `max ((agg h · W_relᵀ + h · W_rootᵀ) + b, 0)`. -/
def conv (h : Feat) (s d : Ids) (wrel : Mat) (b : Bias) (wroot : Mat) : Feat :=
  Cert.Sage.layer (n := 100000) (k := 128) (b := 128) (agg h s d) h (tr wrel) (tr wroot) (fun q => b (ix1 q))

/-- The network: three layers, the result under a leading unit axis. -/
def net (x : Feat) (e : Edges) (w1 : Mat) (b1 : Bias) (r1 : Mat) (w2 : Mat) (b2 : Bias) (r2 : Mat)
    (w3 : Mat) (b3 : Bias) (r3 : Mat) : (⟨S1x100000x128, .f32⟩ : BufTy).Contents (Elt Ideal) :=
  shapeCast _ (conv (conv (conv x (srcIds e) (dstIds e) w1 b1 r1) (srcIds e) (dstIds e) w2 b2 r2)
    (srcIds e) (dstIds e) w3 b3 r3) shapeCasts_S100000x128_S1x100000x128

end Cert.GraphConv

end
-- ==== Proof.Stretch.lean ====
/-
  The host lines between the launches, each stretch read from ANY starting contents `W`.

  Before launch 0 the host cuts the edge list into its source and destination ids, forms the neighbourhood sum of the
  input features, transposes the first layer's two weight matrices and lays its bias out as a row.  Before launches 1
  and 2 it forms the neighbourhood sum of the previous launch's result with the same ids and prepares that layer's
  weights and bias.  After launch 2 it puts the result under a leading unit axis.  A buffer a stretch does not write
  keeps its contents.
-/
import proofs.«155022_j81990925680796_1_alg».proof.Proof.Gen.KernelIdeal.Launch
import proofs.«155022_j81990925680796_1_alg».proof.Proof.GraphConv

noncomputable section

namespace Cert.GraphConv.Stretch

open Idealize.ShloMosaic Idealize.ShloMosaic.StableHlo Idealize.ShloMosaic.TcCoe Cert.KernelIdeal Cert.KernelIdeal.Gen
open Cert.KernelIdeal.Facts₀

variable (W : Valuation τ sig (Elt Ideal))

/-! ## Before launch 0 -/

theorem s0_v1 : StableHlo.after (hostOps0 (F := Ideal)) W (Proc.devRef .tc main_v1) = srcIds (W (Proc.devRef .tc main_arg1)) := by
  after_results <;> rfl
theorem s0_v3 : StableHlo.after (hostOps0 (F := Ideal)) W (Proc.devRef .tc main_v3) = dstIds (W (Proc.devRef .tc main_arg1)) := by
  after_results <;> rfl
theorem s0_v13 : StableHlo.after (hostOps0 (F := Ideal)) W (Proc.devRef .tc main_v13)
    = agg (W (Proc.devRef .tc main_arg0)) (srcIds (W (Proc.devRef .tc main_arg1))) (dstIds (W (Proc.devRef .tc main_arg1))) := by
  after_results <;> rfl
theorem s0_v14 : StableHlo.after (hostOps0 (F := Ideal)) W (Proc.devRef .tc main_v14) = tr (W (Proc.devRef .tc main_arg2)) := by
  after_results <;> rfl
theorem s0_v15 : StableHlo.after (hostOps0 (F := Ideal)) W (Proc.devRef .tc main_v15) = tr (W (Proc.devRef .tc main_arg4)) := by
  after_results <;> rfl
theorem s0_v16 : StableHlo.after (hostOps0 (F := Ideal)) W (Proc.devRef .tc main_v16)
    = shapeCast S1x128 (W (Proc.devRef .tc main_arg3)) Facts₀.shapeCasts_S128_S1x128 := by
  after_results <;> rfl
theorem s0_main_arg0 : StableHlo.after (hostOps0 (F := Ideal)) W (Proc.devRef .tc main_arg0) = W (Proc.devRef .tc main_arg0) := by
  after_results <;> rfl
theorem s0_main_arg5 : StableHlo.after (hostOps0 (F := Ideal)) W (Proc.devRef .tc main_arg5) = W (Proc.devRef .tc main_arg5) := by
  after_results <;> rfl
theorem s0_main_arg6 : StableHlo.after (hostOps0 (F := Ideal)) W (Proc.devRef .tc main_arg6) = W (Proc.devRef .tc main_arg6) := by
  after_results <;> rfl
theorem s0_main_arg7 : StableHlo.after (hostOps0 (F := Ideal)) W (Proc.devRef .tc main_arg7) = W (Proc.devRef .tc main_arg7) := by
  after_results <;> rfl
theorem s0_main_arg8 : StableHlo.after (hostOps0 (F := Ideal)) W (Proc.devRef .tc main_arg8) = W (Proc.devRef .tc main_arg8) := by
  after_results <;> rfl
theorem s0_main_arg9 : StableHlo.after (hostOps0 (F := Ideal)) W (Proc.devRef .tc main_arg9) = W (Proc.devRef .tc main_arg9) := by
  after_results <;> rfl
theorem s0_main_arg10 : StableHlo.after (hostOps0 (F := Ideal)) W (Proc.devRef .tc main_arg10) = W (Proc.devRef .tc main_arg10) := by
  after_results <;> rfl

/-! ## Between launches 0 and 1 -/

theorem s1_v27 : StableHlo.after (hostOps1 (F := Ideal)) W (Proc.devRef .tc main_v27)
    = agg (W (Proc.devRef .tc main_v17)) (W (Proc.devRef .tc main_v1)) (W (Proc.devRef .tc main_v3)) := by
  after_results <;> rfl
theorem s1_v28 : StableHlo.after (hostOps1 (F := Ideal)) W (Proc.devRef .tc main_v28) = tr (W (Proc.devRef .tc main_arg5)) := by
  after_results <;> rfl
theorem s1_v29 : StableHlo.after (hostOps1 (F := Ideal)) W (Proc.devRef .tc main_v29) = tr (W (Proc.devRef .tc main_arg7)) := by
  after_results <;> rfl
theorem s1_v30 : StableHlo.after (hostOps1 (F := Ideal)) W (Proc.devRef .tc main_v30)
    = shapeCast S1x128 (W (Proc.devRef .tc main_arg6)) Facts₀.shapeCasts_S128_S1x128 := by
  after_results <;> rfl
theorem s1_main_v17 : StableHlo.after (hostOps1 (F := Ideal)) W (Proc.devRef .tc main_v17) = W (Proc.devRef .tc main_v17) := by
  after_results <;> rfl
theorem s1_main_v1 : StableHlo.after (hostOps1 (F := Ideal)) W (Proc.devRef .tc main_v1) = W (Proc.devRef .tc main_v1) := by
  after_results <;> rfl
theorem s1_main_v3 : StableHlo.after (hostOps1 (F := Ideal)) W (Proc.devRef .tc main_v3) = W (Proc.devRef .tc main_v3) := by
  after_results <;> rfl
theorem s1_main_arg8 : StableHlo.after (hostOps1 (F := Ideal)) W (Proc.devRef .tc main_arg8) = W (Proc.devRef .tc main_arg8) := by
  after_results <;> rfl
theorem s1_main_arg9 : StableHlo.after (hostOps1 (F := Ideal)) W (Proc.devRef .tc main_arg9) = W (Proc.devRef .tc main_arg9) := by
  after_results <;> rfl
theorem s1_main_arg10 : StableHlo.after (hostOps1 (F := Ideal)) W (Proc.devRef .tc main_arg10) = W (Proc.devRef .tc main_arg10) := by
  after_results <;> rfl

/-! ## Between launches 1 and 2 -/

theorem s2_v41 : StableHlo.after (hostOps2 (F := Ideal)) W (Proc.devRef .tc main_v41)
    = agg (W (Proc.devRef .tc main_v31)) (W (Proc.devRef .tc main_v1)) (W (Proc.devRef .tc main_v3)) := by
  after_results <;> rfl
theorem s2_v42 : StableHlo.after (hostOps2 (F := Ideal)) W (Proc.devRef .tc main_v42) = tr (W (Proc.devRef .tc main_arg8)) := by
  after_results <;> rfl
theorem s2_v43 : StableHlo.after (hostOps2 (F := Ideal)) W (Proc.devRef .tc main_v43) = tr (W (Proc.devRef .tc main_arg10)) := by
  after_results <;> rfl
theorem s2_v44 : StableHlo.after (hostOps2 (F := Ideal)) W (Proc.devRef .tc main_v44)
    = shapeCast S1x128 (W (Proc.devRef .tc main_arg9)) Facts₀.shapeCasts_S128_S1x128 := by
  after_results <;> rfl
theorem s2_main_v31 : StableHlo.after (hostOps2 (F := Ideal)) W (Proc.devRef .tc main_v31) = W (Proc.devRef .tc main_v31) := by
  after_results <;> rfl

/-! ## After launch 2 -/

theorem s3_v46 : StableHlo.after (hostOps3 (F := Ideal)) W (Proc.devRef .tc main_v46)
    = shapeCast S1x100000x128 (W (Proc.devRef .tc main_v45)) Facts₀.shapeCasts_S100000x128_S1x100000x128 := by
  after_results <;> rfl

end Cert.GraphConv.Stretch

end
-- ==== Proof.LibRowBroadcast.lean ====
/-
  A row vector `[1, b]` broadcast down the rows of an `[a, b]` array, and a flat `[b]` vector laid as a row and
  broadcast the same way, read at an entry: entry `(p, q)` of the result is entry `q` of the row.
-/
import Idealize.ShloMosaic.Lib.ValueIdx
import Idealize.ShloMosaic.Lib.Pipeline.Value

noncomputable section

namespace Idealize.ShloMosaic.RowBroadcast

open Idealize.ShloMosaic Idealize.ShloMosaic.ValueIdx

variable {a b : ℕ} {α : Type}

/-- The kernel-side broadcast of a `[1, b]` row to `[a, b]`: entry `(p, q)` is the row's entry `(0, q)`. -/
theorem broadcastTo_row_apply (x : (⟨2, ![1, b]⟩ : Shape).Idx → α)
    (h : (⟨2, ![1, b]⟩ : Shape).Broadcasts ⟨2, ![a, b]⟩) (p : Fin a) (q : Fin b) :
    broadcastTo ⟨2, ![a, b]⟩ x h (ix2 p q) = x (ix2 (0 : Fin 1) q) := by
  refine broadcastTo_apply x h (ix2 p q) (ix2 (0 : Fin 1) q) fun ax => ?_
  match ax with
  | ⟨0, _⟩ => simp
  | ⟨1, _⟩ =>
    by_cases hb : b = 1
    · subst hb
      have : q.val = 0 := by omega
      simp [this]
    · split
      · rename_i h1; exact absurd h1 hb
      · rfl

/-- The host-side broadcast of a `[1, b]` row to `[a, b]` along both axes: entry `(p, q)` is the row's `(0, q)`. -/
theorem broadcastInDim_row_apply (dims : Fin 2 → Fin 2) (hd0 : dims 0 = 0) (hd1 : dims 1 = 1)
    (h : (⟨2, ![1, b]⟩ : Shape).BroadcastsInDim ⟨2, ![a, b]⟩ dims)
    (x : (⟨2, ![1, b]⟩ : Shape).Idx → α) (p : Fin a) (q : Fin b) :
    broadcastInDim ⟨2, ![a, b]⟩ dims h x (ix2 p q) = x (ix2 (0 : Fin 1) q) := by
  refine broadcastInDim_apply dims h x (ix2 p q) (ix2 (0 : Fin 1) q) fun ax => ?_
  match ax with
  | ⟨0, _⟩ => simp
  | ⟨1, _⟩ =>
    by_cases hb : b = 1
    · subst hb
      have : q.val = 0 := by omega
      simp [this]
    · split
      · rename_i h1; exact absurd h1 hb
      · show q.val = ((ix2 p q : (⟨2, ![a, b]⟩ : Shape).Idx) (dims 1)).val
        rw [hd1]

/-- The host-side lay-out of a flat `[b]` vector as a `[1, b]` row (its one axis sent to axis 1): entry `(0, q)` is
    the vector's entry `q`. -/
theorem broadcastInDim_flat_apply (dims : Fin 1 → Fin 2) (hd : dims 0 = 1)
    (h : (⟨1, ![b]⟩ : Shape).BroadcastsInDim ⟨2, ![1, b]⟩ dims)
    (x : (⟨1, ![b]⟩ : Shape).Idx → α) (z : Fin 1) (q : Fin b) :
    broadcastInDim ⟨2, ![1, b]⟩ dims h x (ix2 z q) = x (ix1 q) := by
  refine broadcastInDim_apply dims h x (ix2 z q) (ix1 q) fun ax => ?_
  match ax with
  | ⟨0, _⟩ =>
    by_cases hb : b = 1
    · subst hb
      have : q.val = 0 := by omega
      simp [this]
    · split
      · rename_i h1; exact absurd h1 hb
      · show q.val = ((ix2 z q : (⟨2, ![1, b]⟩ : Shape).Idx) (dims 0)).val
        rw [hd]

/-- A `[b]` vector reshaped to a `[1, b]` row: entry `(0, q)` is the vector's entry `q`. -/
theorem shapeCast_flat_apply (x : (⟨1, ![b]⟩ : Shape).Idx → α)
    (h : (⟨1, ![b]⟩ : Shape).ShapeCasts ⟨2, ![1, b]⟩) (z : Fin 1) (q : Fin b) :
    shapeCast ⟨2, ![1, b]⟩ x h (ix2 z q) = x (ix1 q) := by
  refine shapeCast_apply x h (ix2 z q) (ix1 q) ?_
  have hz : z.val = 0 := by omega
  rw [Shape.rowMajor_val_one, Shape.rowMajor_val_two]
  show q.val = z.val * _ + q.val
  rw [hz, Nat.zero_mul, Nat.zero_add]

end Idealize.ShloMosaic.RowBroadcast

end
-- ==== Proof.Chain.lean ====
/-
  The result buffer's contents at the end of the run, computed boundary by boundary.

  At each boundary between segments the buffers the later segments read are named: the edge list's source and
  destination ids, the weights and biases still to come, and the latest layer's result.  A stretch of host lines is
  read by the previous module's equations at the boundary's contents; a launch puts the layer of the arrays it found
  into its result array and leaves the other buffers as they were.  Three layers on, the result under a leading unit
  axis is the network of the launch memory's argument arrays.
-/
import proofs.«155022_j81990925680796_1_alg».proof.Proof.Gen.KernelIdeal.Frame
import proofs.«155022_j81990925680796_1_alg».proof.Proof.Region0
import proofs.«155022_j81990925680796_1_alg».proof.Proof.Region1
import proofs.«155022_j81990925680796_1_alg».proof.Proof.Region2
import proofs.«155022_j81990925680796_1_alg».proof.Proof.Stretch
import proofs.«155022_j81990925680796_1_alg».proof.Proof.LibRowBroadcast

set_option maxRecDepth 16384

noncomputable section

namespace Cert.GraphConv.Chain

open Idealize.ShloMosaic Idealize.ShloMosaic.ValueIdx Idealize.ShloMosaic.TcCoe Idealize.SL.Sem Cert.KernelIdeal Cert.KernelIdeal.Gen

/-- Equal arrays give equal layers. -/
theorem layer_congr {a a' h h' : FVec Ideal S100000x128 .f32} {wl wl' wr wr' : FVec Ideal S128x128 .f32}
    {b b' : Fin 128 → EReal} (ea : a = a') (eh : h = h') (el : wl = wl') (er : wr = wr') (eb : ∀ q, b q = b' q) :
    Cert.Sage.layer (n := 100000) (k := 128) (b := 128) a h wl wr b = Cert.Sage.layer (n := 100000) (k := 128) (b := 128) a' h' wl' wr' b' := by
  subst ea eh el er
  rw [show b = b' from funext eb]

/-- A bias vector laid out as a `[1, 128]` row, read at `(0, q)`, is its entry `q`. -/
theorem row_apply (v : Bias) (q : Fin 128) :
    shapeCast S1x128 v Facts₀.shapeCasts_S128_S1x128 (ix2 (0 : Fin 1) q) = v (ix1 q) :=
  RowBroadcast.shapeCast_flat_apply v Facts₀.shapeCasts_S128_S1x128 (0 : Fin 1) q

variable (m : (ℓ : Loc nD τ sig) → Buf (Elt Ideal) ℓ) (ρ : Dev nD → PrngReg) (c : Dev nD)

/-- The edge list's two id vectors and the three layers' results, of the launch memory's argument arrays. -/
abbrev S : Ids := srcIds (m ((c : Thread nD τ).loc main_arg1))
abbrev T : Ids := dstIds (m ((c : Thread nD τ).loc main_arg1))
abbrev H1 : Feat := conv (m ((c : Thread nD τ).loc main_arg0)) (S m c) (T m c) (m ((c : Thread nD τ).loc main_arg2)) (m ((c : Thread nD τ).loc main_arg3)) (m ((c : Thread nD τ).loc main_arg4))
abbrev H2 : Feat := conv (H1 m c) (S m c) (T m c) (m ((c : Thread nD τ).loc main_arg5)) (m ((c : Thread nD τ).loc main_arg6)) (m ((c : Thread nD τ).loc main_arg7))
abbrev H3 : Feat := conv (H2 m c) (S m c) (T m c) (m ((c : Thread nD τ).loc main_arg8)) (m ((c : Thread nD τ).loc main_arg9)) (m ((c : Thread nD τ).loc main_arg10))

/-! ## Entering launch 0 -/

theorem w1_v1 : W1 m ρ c (Proc.devRef .tc main_v1) = S m c := Stretch.s0_v1 (W0 m ρ c)
theorem w1_v3 : W1 m ρ c (Proc.devRef .tc main_v3) = T m c := Stretch.s0_v3 (W0 m ρ c)
theorem w1_v13 : W1 m ρ c (Proc.devRef .tc main_v13) = agg (m ((c : Thread nD τ).loc main_arg0)) (S m c) (T m c) := Stretch.s0_v13 (W0 m ρ c)
theorem w1_v14 : W1 m ρ c (Proc.devRef .tc main_v14) = tr (m ((c : Thread nD τ).loc main_arg2)) := Stretch.s0_v14 (W0 m ρ c)
theorem w1_v15 : W1 m ρ c (Proc.devRef .tc main_v15) = tr (m ((c : Thread nD τ).loc main_arg4)) := Stretch.s0_v15 (W0 m ρ c)
theorem w1_v16 : W1 m ρ c (Proc.devRef .tc main_v16) = shapeCast S1x128 (m ((c : Thread nD τ).loc main_arg3)) Facts₀.shapeCasts_S128_S1x128 :=
  Stretch.s0_v16 (W0 m ρ c)
theorem w1_main_arg0 : W1 m ρ c (Proc.devRef .tc main_arg0) = (m ((c : Thread nD τ).loc main_arg0)) := Stretch.s0_main_arg0 (W0 m ρ c)
theorem w1_main_arg5 : W1 m ρ c (Proc.devRef .tc main_arg5) = (m ((c : Thread nD τ).loc main_arg5)) := Stretch.s0_main_arg5 (W0 m ρ c)
theorem w1_main_arg6 : W1 m ρ c (Proc.devRef .tc main_arg6) = (m ((c : Thread nD τ).loc main_arg6)) := Stretch.s0_main_arg6 (W0 m ρ c)
theorem w1_main_arg7 : W1 m ρ c (Proc.devRef .tc main_arg7) = (m ((c : Thread nD τ).loc main_arg7)) := Stretch.s0_main_arg7 (W0 m ρ c)
theorem w1_main_arg8 : W1 m ρ c (Proc.devRef .tc main_arg8) = (m ((c : Thread nD τ).loc main_arg8)) := Stretch.s0_main_arg8 (W0 m ρ c)
theorem w1_main_arg9 : W1 m ρ c (Proc.devRef .tc main_arg9) = (m ((c : Thread nD τ).loc main_arg9)) := Stretch.s0_main_arg9 (W0 m ρ c)
theorem w1_main_arg10 : W1 m ρ c (Proc.devRef .tc main_arg10) = (m ((c : Thread nD τ).loc main_arg10)) := Stretch.s0_main_arg10 (W0 m ρ c)

/-! ## Leaving launch 0 -/

theorem w2_v17 : W2 m ρ c (Proc.devRef .tc main_v17) = H1 m c :=
  (W2_arr m ρ c 5).trans ((Region0.final (V1 m ρ) c).trans
    (layer_congr (w1_v13 m ρ c) (w1_main_arg0 m ρ c) (w1_v14 m ρ c) (w1_v15 m ρ c)
      fun q => (congrFun (w1_v16 m ρ c) _).trans (row_apply _ q)))
theorem w2_v1 : W2 m ρ c (Proc.devRef .tc main_v1) = S m c := (W2_of_ne m ρ c main_v1 (by decide)).trans (w1_v1 m ρ c)
theorem w2_v3 : W2 m ρ c (Proc.devRef .tc main_v3) = T m c := (W2_of_ne m ρ c main_v3 (by decide)).trans (w1_v3 m ρ c)
theorem w2_main_arg5 : W2 m ρ c (Proc.devRef .tc main_arg5) = (m ((c : Thread nD τ).loc main_arg5)) := (W2_of_ne m ρ c main_arg5 (by decide)).trans (w1_main_arg5 m ρ c)
theorem w2_main_arg6 : W2 m ρ c (Proc.devRef .tc main_arg6) = (m ((c : Thread nD τ).loc main_arg6)) := (W2_of_ne m ρ c main_arg6 (by decide)).trans (w1_main_arg6 m ρ c)
theorem w2_main_arg7 : W2 m ρ c (Proc.devRef .tc main_arg7) = (m ((c : Thread nD τ).loc main_arg7)) := (W2_of_ne m ρ c main_arg7 (by decide)).trans (w1_main_arg7 m ρ c)
theorem w2_main_arg8 : W2 m ρ c (Proc.devRef .tc main_arg8) = (m ((c : Thread nD τ).loc main_arg8)) := (W2_of_ne m ρ c main_arg8 (by decide)).trans (w1_main_arg8 m ρ c)
theorem w2_main_arg9 : W2 m ρ c (Proc.devRef .tc main_arg9) = (m ((c : Thread nD τ).loc main_arg9)) := (W2_of_ne m ρ c main_arg9 (by decide)).trans (w1_main_arg9 m ρ c)
theorem w2_main_arg10 : W2 m ρ c (Proc.devRef .tc main_arg10) = (m ((c : Thread nD τ).loc main_arg10)) := (W2_of_ne m ρ c main_arg10 (by decide)).trans (w1_main_arg10 m ρ c)

/-! ## Entering launch 1 -/

theorem w3_v27 : W3 m ρ c (Proc.devRef .tc main_v27) = agg (H1 m c) (S m c) (T m c) :=
  (Stretch.s1_v27 (W2 m ρ c)).trans (by rw [w2_v17 m ρ c, w2_v1 m ρ c, w2_v3 m ρ c])
theorem w3_v17 : W3 m ρ c (Proc.devRef .tc main_v17) = H1 m c := (Stretch.s1_main_v17 (W2 m ρ c)).trans (w2_v17 m ρ c)
theorem w3_v28 : W3 m ρ c (Proc.devRef .tc main_v28) = tr (m ((c : Thread nD τ).loc main_arg5)) :=
  (Stretch.s1_v28 (W2 m ρ c)).trans (congrArg tr (w2_main_arg5 m ρ c))
theorem w3_v29 : W3 m ρ c (Proc.devRef .tc main_v29) = tr (m ((c : Thread nD τ).loc main_arg7)) :=
  (Stretch.s1_v29 (W2 m ρ c)).trans (congrArg tr (w2_main_arg7 m ρ c))
theorem w3_v30 : W3 m ρ c (Proc.devRef .tc main_v30) = shapeCast S1x128 (m ((c : Thread nD τ).loc main_arg6)) Facts₀.shapeCasts_S128_S1x128 :=
  (Stretch.s1_v30 (W2 m ρ c)).trans (by rw [w2_main_arg6 m ρ c])
theorem w3_v1 : W3 m ρ c (Proc.devRef .tc main_v1) = S m c := (Stretch.s1_main_v1 (W2 m ρ c)).trans (w2_v1 m ρ c)
theorem w3_v3 : W3 m ρ c (Proc.devRef .tc main_v3) = T m c := (Stretch.s1_main_v3 (W2 m ρ c)).trans (w2_v3 m ρ c)
theorem w3_main_arg8 : W3 m ρ c (Proc.devRef .tc main_arg8) = (m ((c : Thread nD τ).loc main_arg8)) := (Stretch.s1_main_arg8 (W2 m ρ c)).trans (w2_main_arg8 m ρ c)
theorem w3_main_arg9 : W3 m ρ c (Proc.devRef .tc main_arg9) = (m ((c : Thread nD τ).loc main_arg9)) := (Stretch.s1_main_arg9 (W2 m ρ c)).trans (w2_main_arg9 m ρ c)
theorem w3_main_arg10 : W3 m ρ c (Proc.devRef .tc main_arg10) = (m ((c : Thread nD τ).loc main_arg10)) := (Stretch.s1_main_arg10 (W2 m ρ c)).trans (w2_main_arg10 m ρ c)

/-! ## Leaving launch 1 -/

theorem w4_v31 : W4 m ρ c (Proc.devRef .tc main_v31) = H2 m c :=
  (W4_arr m ρ c 5).trans ((Region1.final (V3 m ρ) c).trans
    (layer_congr (w3_v27 m ρ c) (w3_v17 m ρ c) (w3_v28 m ρ c) (w3_v29 m ρ c)
      fun q => (congrFun (w3_v30 m ρ c) _).trans (row_apply _ q)))
theorem w4_v1 : W4 m ρ c (Proc.devRef .tc main_v1) = S m c := (W4_of_ne m ρ c main_v1 (by decide)).trans (w3_v1 m ρ c)
theorem w4_v3 : W4 m ρ c (Proc.devRef .tc main_v3) = T m c := (W4_of_ne m ρ c main_v3 (by decide)).trans (w3_v3 m ρ c)
theorem w4_main_arg8 : W4 m ρ c (Proc.devRef .tc main_arg8) = (m ((c : Thread nD τ).loc main_arg8)) := (W4_of_ne m ρ c main_arg8 (by decide)).trans (w3_main_arg8 m ρ c)
theorem w4_main_arg9 : W4 m ρ c (Proc.devRef .tc main_arg9) = (m ((c : Thread nD τ).loc main_arg9)) := (W4_of_ne m ρ c main_arg9 (by decide)).trans (w3_main_arg9 m ρ c)
theorem w4_main_arg10 : W4 m ρ c (Proc.devRef .tc main_arg10) = (m ((c : Thread nD τ).loc main_arg10)) := (W4_of_ne m ρ c main_arg10 (by decide)).trans (w3_main_arg10 m ρ c)

/-! ## Entering launch 2 -/

theorem w5_v41 : W5 m ρ c (Proc.devRef .tc main_v41) = agg (H2 m c) (S m c) (T m c) :=
  (Stretch.s2_v41 (W4 m ρ c)).trans (by rw [w4_v31 m ρ c, w4_v1 m ρ c, w4_v3 m ρ c])
theorem w5_v31 : W5 m ρ c (Proc.devRef .tc main_v31) = H2 m c := (Stretch.s2_main_v31 (W4 m ρ c)).trans (w4_v31 m ρ c)
theorem w5_v42 : W5 m ρ c (Proc.devRef .tc main_v42) = tr (m ((c : Thread nD τ).loc main_arg8)) :=
  (Stretch.s2_v42 (W4 m ρ c)).trans (congrArg tr (w4_main_arg8 m ρ c))
theorem w5_v43 : W5 m ρ c (Proc.devRef .tc main_v43) = tr (m ((c : Thread nD τ).loc main_arg10)) :=
  (Stretch.s2_v43 (W4 m ρ c)).trans (congrArg tr (w4_main_arg10 m ρ c))
theorem w5_v44 : W5 m ρ c (Proc.devRef .tc main_v44) = shapeCast S1x128 (m ((c : Thread nD τ).loc main_arg9)) Facts₀.shapeCasts_S128_S1x128 :=
  (Stretch.s2_v44 (W4 m ρ c)).trans (by rw [w4_main_arg9 m ρ c])

/-! ## Leaving launch 2, and the last host line -/

theorem w6_v45 : W6 m ρ c (Proc.devRef .tc main_v45) = H3 m c :=
  (W6_arr m ρ c 5).trans ((Region2.final (V5 m ρ) c).trans
    (layer_congr (w5_v41 m ρ c) (w5_v31 m ρ c) (w5_v42 m ρ c) (w5_v43 m ρ c)
      fun q => (congrFun (w5_v44 m ρ c) _).trans (row_apply _ q)))

/-- The result buffer at the end of the run is the network of the launch memory's argument arrays. -/
theorem value : W7 m ρ c (Proc.devRef .tc main_v46)
    = net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8)) (m ((c : Thread nD τ).loc main_arg9)) (m ((c : Thread nD τ).loc main_arg10)) :=
  (Stretch.s3_v46 (W6 m ρ c)).trans (by rw [w6_v45 m ρ c]; rfl)

end Cert.GraphConv.Chain

end
-- ==== Proof.Ref.lean ====
/-
  The reference program's result, stage by stage, is the network.

  The reference forms each layer as `max ((agg h · W_relᵀ + b) + h · W_rootᵀ, 0)` over host matrix products, the bias
  broadcast down the rows and the clamp's zero an array of zeros.  That is the layer of the specification: the
  three-term sum in another order, and addition of extended reals is commutative and associative, infinities included.
  The neighbourhood sums are the same two host operations on the same ids, so they stay unopened.
-/
import proofs.«155022_j81990925680796_1_alg».proof.Proof.Gen.ReferenceIdeal.Read
import proofs.«155022_j81990925680796_1_alg».proof.Proof.GraphConv
import proofs.«155022_j81990925680796_1_alg».proof.Proof.LibRowBroadcast

noncomputable section

namespace Cert.GraphConv.Ref

open Idealize.ShloMosaic Idealize.ShloMosaic.ValueIdx Cert.ReferenceIdeal Cert.ReferenceIdeal.Read

/-- The reference's matrix products contract the left operand's columns with the right operand's rows. -/
abbrev D := Cert.ReferenceIdeal.dot_S100000x128_S128x128_S100000x128_1_0_0_1_n_n

/-- A bias vector laid out as a row and broadcast down the rows, at `(p, q)`, is its entry `q`. -/
theorem bias_apply (b : Bias) (p : Fin 100000) (q : Fin 128) :
    broadcastInDim S100000x128 ![0, 1] Facts₀.bcast_S1x128_S100000x128_0_1 (broadcastInDim S1x128 ![1] Facts₀.bcast_S128_S1x128_1 b) (ix2 p q)
      = b (ix1 q) :=
  (RowBroadcast.broadcastInDim_row_apply ![0, 1] rfl rfl Facts₀.bcast_S1x128_S100000x128_0_1 _ p q).trans
    (RowBroadcast.broadcastInDim_flat_apply ![1] rfl Facts₀.bcast_S128_S1x128_1 b (0 : Fin 1) q)

/-- The array of zeros the clamp compares with. -/
theorem zero_apply (i : S100000x128.Idx) :
    broadcastInDim S100000x128 ![] Facts₀.bcast_S_S100000x128 (constant (F := Ideal) S_ .f32 0x00000000#32) i
      = Ideal.ofBits .f32 0x00000000#32 :=
  (broadcastInDim_apply _ Facts₀.bcast_S_S100000x128 _ i (fun a => a.elim0) (fun a => a.elim0)).trans rfl

/-- One layer as the reference spells it is the specification's layer. -/
theorem host_conv (mean h : FVec Ideal S100000x128 .f32) (wl wr : FVec Ideal S128x128 .f32) (b : Bias) :
    maximumf (addf (addf (Host.dotGeneral D none mean wl)
        (broadcastInDim S100000x128 ![0, 1] Facts₀.bcast_S1x128_S100000x128_0_1 (broadcastInDim S1x128 ![1] Facts₀.bcast_S128_S1x128_1 b)))
        (Host.dotGeneral D none h wr))
      (broadcastInDim S100000x128 ![] Facts₀.bcast_S_S100000x128 (constant (F := Ideal) S_ .f32 0x00000000#32))
    = Cert.Sage.layer (n := 100000) (k := 128) (b := 128) mean h wl wr (fun q => b (ix1 q)) :=
  Cert.Sage.host_layer_eq D rfl rfl lhs_main_v15_0 lhs_main_v15_1 rhs_main_v15_0 rhs_main_v15_1 mean h wl wr
    (fun q => b (ix1 q)) _ _ (bias_apply b) zero_apply

variable (x0 : Feat) (x1 : Edges) (x2 : Mat) (x3 : Bias) (x4 x5 : Mat) (x6 : Bias) (x7 x8 : Mat) (x9 : Bias) (x10 : Mat)

/-- The two id vectors. -/
theorem ids_src : val_main_v1 (F := Ideal) x1 = srcIds x1 := rfl
theorem ids_dst : val_main_v3 (F := Ideal) x1 = dstIds x1 := rfl

/-- Layer 1. -/
theorem agg1 : val_main_v13 (F := Ideal) x0 x1 = agg x0 (srcIds x1) (dstIds x1) := by
  unfold val_main_v13 val_main_v12 val_main_v11 val_main_v10 val_main_v9 val_main_v8 val_main_v7 val_main_v6 val_main_v5
    val_main_v4 val_main_cst val_main_c val_main_c_0
  rw [ids_src, ids_dst]
  rfl
theorem layer1 : val_main_v22 (F := Ideal) x0 x1 x2 x3 x4 = conv x0 (srcIds x1) (dstIds x1) x2 x3 x4 := by
  unfold val_main_v22 val_main_v21 val_main_v18 val_main_v20 val_main_v15 val_main_v17 val_main_v16 val_main_call0_v0 val_main_call0_cst
  rw [agg1]
  exact host_conv _ _ _ _ _

/-- Layer 2. -/
theorem agg2 : val_main_v32 (F := Ideal) x0 x1 x2 x3 x4 = agg (val_main_v22 (F := Ideal) x0 x1 x2 x3 x4) (srcIds x1) (dstIds x1) := by
  unfold val_main_v32 val_main_v31 val_main_v30 val_main_v29 val_main_v28 val_main_v27 val_main_v26 val_main_v25 val_main_v24
    val_main_v23 val_main_cst_3 val_main_c_1 val_main_c_2
  rw [ids_src, ids_dst]
  rfl
theorem layer2 : val_main_v41 (F := Ideal) x0 x1 x2 x3 x4 x5 x6 x7
    = conv (val_main_v22 (F := Ideal) x0 x1 x2 x3 x4) (srcIds x1) (dstIds x1) x5 x6 x7 := by
  unfold val_main_v41 val_main_v40 val_main_v37 val_main_v39 val_main_v34 val_main_v36 val_main_v35 val_main_call1_v0 val_main_call1_cst
  rw [agg2]
  exact host_conv _ _ _ _ _

/-- Layer 3. -/
theorem agg3 : val_main_v51 (F := Ideal) x0 x1 x2 x3 x4 x5 x6 x7 = agg (val_main_v41 (F := Ideal) x0 x1 x2 x3 x4 x5 x6 x7) (srcIds x1) (dstIds x1) := by
  unfold val_main_v51 val_main_v50 val_main_v49 val_main_v48 val_main_v47 val_main_v46 val_main_v45 val_main_v44 val_main_v43
    val_main_v42 val_main_cst_6 val_main_c_4 val_main_c_5
  rw [ids_src, ids_dst]
  rfl
theorem layer3 : val_main_v60 (F := Ideal) x0 x1 x2 x3 x4 x5 x6 x7 x8 x9 x10
    = conv (val_main_v41 (F := Ideal) x0 x1 x2 x3 x4 x5 x6 x7) (srcIds x1) (dstIds x1) x8 x9 x10 := by
  unfold val_main_v60 val_main_v59 val_main_v56 val_main_v58 val_main_v53 val_main_v55 val_main_v54 val_main_call2_v0 val_main_call2_cst
  rw [agg3]
  exact host_conv _ _ _ _ _

/-- The reference's result is the network of its arguments. -/
theorem result : val_main_v61 (F := Ideal) x0 x1 x2 x3 x4 x5 x6 x7 x8 x9 x10 = net x0 x1 x2 x3 x4 x5 x6 x7 x8 x9 x10 := by
  unfold val_main_v61 net
  rw [layer3, layer2, layer1]

end Cert.GraphConv.Ref

end
-- ==== Proof.lean ====
/-
  A three-layer graph convolution computed by three tiled launches, against its plain reference.

  Each layer is `max ((agg h · W_relᵀ + h · W_rootᵀ) + b, 0)`, where `agg h` sums the rows of `h` over each node's
  incoming edges.  The kernel program forms `agg h` on the host and runs the two matrix products, the bias and the clamp
  in a launch over 20 blocks of 5000 rows; the reference forms the same `agg h` and adds the bias before the second
  product.  On the extended reals both are one function of the argument arrays (`Cert.GraphConv.net`): narrowing a
  matrix operand is the identity, a matrix product is its contraction sum, the blocks tile the rows, and the two
  orders of the three-term sum agree because addition is commutative and associative, infinities included.  No
  finiteness of the inputs is used.

  The three programs' termination and unchanged arguments come from the launches' generated frames and the
  reference's generated run; the idealization rewrote nothing, so it has nothing to preserve.
-/
import proofs.«155022_j81990925680796_1_alg».proof.Defs
import proofs.«155022_j81990925680796_1_alg».proof.Proof.Gen.Kernel
import proofs.«155022_j81990925680796_1_alg».proof.Proof.Gen.Kernel.Frame
import proofs.«155022_j81990925680796_1_alg».proof.Proof.Gen.KernelIdeal
import proofs.«155022_j81990925680796_1_alg».proof.Proof.Gen.KernelIdeal.Frame
import proofs.«155022_j81990925680796_1_alg».proof.Proof.Gen.ReferenceIdeal
import proofs.«155022_j81990925680796_1_alg».proof.Proof.Gen.Pre_finite_inputs
import proofs.«155022_j81990925680796_1_alg».proof.Proof.Gen.ReferenceIdeal.Run
import proofs.«155022_j81990925680796_1_alg».proof.Proof.Gen.ReferenceIdeal.Read
import proofs.«155022_j81990925680796_1_alg».proof.Proof.RunValue
import proofs.«155022_j81990925680796_1_alg».proof.Proof.Chain
import proofs.«155022_j81990925680796_1_alg».proof.Proof.Ref

noncomputable section

namespace Cert.Proof

open Idealize.ShloMosaic Idealize.ShloMosaic.TcCoe Idealize.SL.Sem

/-- The word-level kernel program runs and keeps its arguments. -/
theorem frame_kernel : Cert.frame_Kernel := fun m ρ _ => Cert.Kernel.Gen.frame m ρ

/-- The idealized kernel program runs and keeps its arguments. -/
theorem frame_kernelIdeal : Cert.frame_KernelIdeal := fun m ρ _ => Cert.KernelIdeal.Gen.frame m ρ

/-- The reference runs and keeps its arguments: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both idealized programs end with the network of the argument arrays in their result buffer. -/
theorem algebraic : Cert.algebraic_KernelIdeal_ReferenceIdeal := by
  intro m ρ m' ρ' _ hagree
  refine ⟨fun c => Cert.GraphConv.net (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5))
    (m ((c.tc : Thread Cert.KernelIdeal.nD Cert.KernelIdeal.τ).loc Cert.KernelIdeal.main_arg6))
    (m ((c.tc : Thread Cert.KernelIdeal.nD Cert.KernelIdeal.τ).loc Cert.KernelIdeal.main_arg7))
    (m ((c.tc : Thread Cert.KernelIdeal.nD Cert.KernelIdeal.τ).loc Cert.KernelIdeal.main_arg8))
    (m ((c.tc : Thread Cert.KernelIdeal.nD Cert.KernelIdeal.τ).loc Cert.KernelIdeal.main_arg9))
    (m ((c.tc : Thread Cert.KernelIdeal.nD Cert.KernelIdeal.τ).loc Cert.KernelIdeal.main_arg10)), ?_, ?_⟩
  · exact (θ_run Cert.KernelIdeal.defs _ _).mono
      (fun r h c => ⟨(h c).1.trans (Cert.GraphConv.Chain.value m ρ c), (h c).2⟩)
      (Cert.GraphConv.Launch.run (F := Ideal) m ρ)
  · refine (θ_run Cert.ReferenceIdeal.defs _ _).mono (fun r h c => ⟨(h c).1.trans ?_, (h c).2⟩)
      (Cert.ReferenceIdeal.Value.run (F := Ideal) m' ρ')
    obtain ⟨a0, a1, a2, a3, a4, a5, a6, a7, a8, a9, a10⟩ := hagree c
    rw [Cert.ReferenceIdeal.Read.val_main_v61_eq, Cert.GraphConv.Ref.result, a0, a1, a2, a3, a4, a5, a6, a7, a8, a9, a10]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
